-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg9 : FVec F S4096 .f32) (main_v33 : IVec S_ 1) : IVec S_ 1 :=
  let main_v34 : FVec F S4096 .f32 := Host.absf main_arg9
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg6 : FVec F S4096x64 .f32) (main_arg7 : FVec F S64 .f32) (main_arg8 : FVec F S64x4096 .f32) (main_arg9 : FVec F S4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x64 .f32 := Host.absf main_arg6
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x4096 .f32 := Host.absf main_arg8
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg9 main_v33

def fn {F : FTy → Type} [FloatOps F] (main_arg0 : FVec F S4096x4096 .f32) (main_arg1 : FVec F S8192x8 .f32) (main_arg2 : IVec S4096x512 32) (main_arg3 : IVec S4096 32) (main_arg4 : FVec F S4096x1 .f32) (main_arg5 : FVec F S4096x1 .f32) (main_arg6 : FVec F S4096x64 .f32) (main_arg7 : FVec F S64 .f32) (main_arg8 : FVec F S64x4096 .f32) (main_arg9 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x1 .f32 := Host.absf main_arg5
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg6 main_arg7 main_arg8 main_arg9 main_v13 main_v16
-- ==== Kernel.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩
abbrev S4096x512x1 : Shape := ⟨3, ![4096, 512, 1]⟩
abbrev S4096x512x8 : Shape := ⟨3, ![4096, 512, 8]⟩
abbrev S1x64 : Shape := ⟨2, ![1, 64]⟩
abbrev S4096x65 : Shape := ⟨2, ![4096, 65]⟩
abbrev S1x4096 : Shape := ⟨2, ![1, 4096]⟩
abbrev S1024x1024 : Shape := ⟨2, ![1024, 1024]⟩
abbrev S1x1024 : Shape := ⟨2, ![1, 1024]⟩
abbrev S1024x65 : Shape := ⟨2, ![1024, 65]⟩

abbrev nBuf : Space → Nat
  | .hbm => 44
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S8192x8, .f32⟩
  | .hbm, ⟨2, _⟩ => ⟨S4096x512, .i32⟩
  | .hbm, ⟨3, _⟩ => ⟨S4096, .i32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S4096, .f32⟩
  | .hbm, ⟨10, _⟩ => ⟨S8192x8, .bf16⟩
  | .hbm, ⟨11, _⟩ => ⟨S_, .i32⟩
  | .hbm, ⟨12, _⟩ => ⟨S4096x512, .i32⟩
  | .hbm, ⟨13, _⟩ => ⟨S4096x512, .i1⟩
  | .hbm, ⟨14, _⟩ => ⟨S_, .i32⟩
  | .hbm, ⟨15, _⟩ => ⟨S4096x512, .i32⟩
  | .hbm, ⟨16, _⟩ => ⟨S4096x512, .i32⟩
  | .hbm, ⟨17, _⟩ => ⟨S4096x512, .i32⟩
  | .hbm, ⟨18, _⟩ => ⟨S4096x512x1, .i32⟩
  | .hbm, ⟨19, _⟩ => ⟨S4096x512x8, .bf16⟩
  | .hbm, ⟨20, _⟩ => ⟨S4096x4096, .bf16⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x4096, .bf16⟩
  | .hbm, ⟨30, _⟩ => ⟨S4096x4096, .bf16⟩
  | .hbm, ⟨31, _⟩ => ⟨S4096x64, .f32⟩
  | .hbm, ⟨32, _⟩ => ⟨S4096x64, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x65, .f32⟩
  | .hbm, ⟨40, _⟩ => ⟨S4096x65, .f32⟩
  | .hbm, ⟨41, _⟩ => ⟨S1x4096, .f32⟩
  | .hbm, ⟨42, _⟩ => ⟨S1x4096, .f32⟩
  | .hbm, ⟨43, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x65, .f32⟩
  | .local _ .vmem, ⟨9, _⟩ => ⟨S1024x65, .f32⟩
  | .local _ .vmem, ⟨10, _⟩ => ⟨S1024x65, .f32⟩
  | .local _ .vmem, ⟨11, _⟩ => ⟨S1024x65, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x65 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  transposes_S64x4096_S4096x64_1_0 : S64x4096.Transposes [1, 0] S4096x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x4096_S4096_d1 : S4096x4096.ReducesTo [1] S4096
  h_S_ : 0 < S_.numel
  concatenates_S4096x64_S4096x1_S4096x65_d1 : Shape.Concatenates [S4096x64, S4096x1] S4096x65 1
  shapeCasts_S4096x1_S1x4096 : S4096x1.ShapeCasts S1x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x65_S1024x65_0_0 : ∀ a, (![0, 0] : Fin 2 → Nat) a + S1024x65.size a ≤ S1024x65.size a
  h_S1024x65 : 0 < S1024x65.numel
  shapeCasts_S1024x65_S1024x65 : S1024x65.ShapeCasts S1024x65
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S8192x8_S4096x512x1_S4096x512x8_2_0_n_n_0_2_18_wf : GatherDims.WF S8192x8 S4096x512x1 S4096x512x8 [2] [0] [] [0] [] 2 ![1, 8]
  gather_S4096x4096_S4096x1_S4096x4096_0_1_n_n_1_1_40961_wf : GatherDims.WF S4096x4096 S4096x1 S4096x4096 [0] [1] [] [1] [] 1 ![4096, 1]
  dot_S4096x4096_S4096x64_S4096x64_1_0_0_1_n_n_wf : DotDims.WF S4096x4096 S4096x64 S4096x64 [1] [0] [0] [1] [] []
  dot_S1024x1024_S1024x1024_S1024x1024_1_1_0_0_n_n_wf : DotDims.WF S1024x1024 S1024x1024 S1024x1024 [1] [1] [0] [0] [] []
  dot_S1024x65_S1024x65_S1024x1024_1_1_0_0_n_n_wf : DotDims.WF S1024x65 S1024x65 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x65.size a ≤ S4096x65.size a
  hwx0_4 : ∀ i : grid0.Coords, EltTy.bits .f32 = 32 ∨ (Rect.block (s := S4096x65) S1024x65.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x65.size a ≤ S4096x65.size a
  hwx0_5 : ∀ i : grid0.Coords, EltTy.bits .f32 = 32 ∨ (Rect.block (s := S4096x65) S1024x65.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)

variable [Facts₀]

def gather_S8192x8_S4096x512x1_S4096x512x8_2_0_n_n_0_2_18 : GatherDims S8192x8 S4096x512x1 S4096x512x8 where
  offsetDims := [2]
  collapsedSliceDims := [0]
  operandBatchingDims := []
  startIndicesBatchingDims := []
  startIndexMap := [0]
  indexVectorDim := 2
  sliceSizes := ![1, 8]
  wf := gather_S8192x8_S4096x512x1_S4096x512x8_2_0_n_n_0_2_18_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x65_S1024x65_S1024x1024_1_1_0_0_n_n : DotDims S1024x65 S1024x65 S1024x1024 where
  lhsContracting := [1]
  rhsContracting := [1]
  lhsNonContracting := [0]
  rhsNonContracting := [0]
  lhsBatch := []
  rhsBatch := []
  wf := dot_S1024x65_S1024x65_S1024x1024_1_1_0_0_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1024x65.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1024x65.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x8 : Shape := ⟨2, ![8192, 8]⟩
abbrev S4096x512 : Shape := ⟨2, ![4096, 512]⟩
abbrev S4096 : Shape := ⟨1, ![4096]⟩
abbrev S4096x1 : Shape := ⟨2, ![4096, 1]⟩
abbrev S4096x64 : Shape := ⟨2, ![4096, 64]⟩
abbrev S64 : Shape := ⟨1, ![64]⟩
abbrev S64x4096 : Shape := ⟨2, ![64, 4096]⟩
abbrev S_ : Shape := ⟨0, ![]⟩
abbrev S4096x512x1 : Shape := ⟨3, ![4096, 512, 1]⟩
abbrev S4096x512x8 : Shape := ⟨3, ![4096, 512, 8]⟩
abbrev S1x64 : Shape := ⟨2, ![1, 64]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8192x8, .f32⟩
  | .hbm, ⟨2, _⟩ => ⟨S4096x512, .i32⟩
  | .hbm, ⟨3, _⟩ => ⟨S4096, .i32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64, .f32⟩
  | .hbm, ⟨8, _⟩ => ⟨S64x4096, .f32⟩
  | .hbm, ⟨9, _⟩ => ⟨S4096, .f32⟩
  | .hbm, ⟨10, _⟩ => ⟨S_, .i32⟩
  | .hbm, ⟨11, _⟩ => ⟨S4096x512, .i32⟩
  | .hbm, ⟨12, _⟩ => ⟨S4096x512, .i1⟩
  | .hbm, ⟨13, _⟩ => ⟨S_, .i32⟩
  | .hbm, ⟨14, _⟩ => ⟨S4096x512, .i32⟩
  | .hbm, ⟨15, _⟩ => ⟨S4096x512, .i32⟩
  | .hbm, ⟨16, _⟩ => ⟨S4096x512, .i32⟩
  | .hbm, ⟨17, _⟩ => ⟨S4096x512x1, .i32⟩
  | .hbm, ⟨18, _⟩ => ⟨S4096x512x8, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x4096, .f32⟩
  | .hbm, ⟨33, _⟩ => ⟨S1x64, .f32⟩
  | .hbm, ⟨34, _⟩ => ⟨S4096x64, .f32⟩
  | .hbm, ⟨35, _⟩ => ⟨S4096x64, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  shapeCasts_S4096x512x8_S4096x4096 : S4096x512x8.ShapeCasts S4096x4096
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S8192x8_S4096x512x1_S4096x512x8_2_0_n_n_0_2_18_wf : GatherDims.WF S8192x8 S4096x512x1 S4096x512x8 [2] [0] [] [0] [] 2 ![1, 8]
  gather_S4096x4096_S4096x1_S4096x4096_0_1_n_n_1_1_40961_wf : GatherDims.WF S4096x4096 S4096x1 S4096x4096 [0] [1] [] [1] [] 1 ![4096, 1]
  dot_S4096x64_S64x4096_S4096x4096_1_0_0_1_n_n_wf : DotDims.WF S4096x64 S64x4096 S4096x4096 [1] [0] [0] [1] [] []
  dot_S4096x4096_S4096x4096_S4096x4096_1_0_0_1_n_n_wf : DotDims.WF S4096x4096 S4096x4096 S4096x4096 [1] [0] [0] [1] [] []

variable [Facts₀]

def gather_S8192x8_S4096x512x1_S4096x512x8_2_0_n_n_0_2_18 : GatherDims S8192x8 S4096x512x1 S4096x512x8 where
  offsetDims := [2]
  collapsedSliceDims := [0]
  operandBatchingDims := []
  startIndicesBatchingDims := []
  startIndexMap := [0]
  indexVectorDim := 2
  sliceSizes := ![1, 8]
  wf := gather_S8192x8_S4096x512x1_S4096x512x8_2_0_n_n_0_2_18_wf
def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
import proofs.«154536_j11123965297141_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What each control case of the body leaves behind, as the body's pure payloads.

  The accumulator scratch after a step is `acc + x·wᵀ` of the step's two input blocks (payload 2) — over the zero block
  (payload 1) at the first step of a run of four, over what the step before left otherwise — and the output block the
  last step of a run writes is the epilogue (payload 3) of that accumulator and the four small blocks.
-/

namespace Cert.KernelPieces

open Cert.KernelIdeal Cert.KernelIdeal.Gen

variable {F : FTy → Type} [FloatOps F]

theorem hz : (![0, 0] : Fin 2 → Nat) = fun _ => 0 := funext fun a => by fin_cases a <;> rfl

/-- A middle step (k = 1, 2): the scratch holding `acc` ends at payload 2 of the two input blocks over `acc`. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x65 .f32) (harg7 : arg7.IsWhole) (arg8 : Memref sig .tc .vmem S1024x65 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i) (x0 : Vec F S1024x1024 .bf16) (x1 : Vec F S1024x1024 .bf16) (x2 : Vec F S1x1024 .f32) (x3 : Vec F S1x1024 .f32) (x4 : Vec F S1024x65 .f32) (x5 : Vec F S1024x65 .f32) (acc : Vec F S1024x1024 .f32) :
    sout0_B_0 c i arg3 harg3 arg4 harg4 arg5 harg5 arg6 harg6 arg7 harg7 arg8 harg8 arg9 harg9 arg10 harg10 hc0 hc1 x0 x1 x2 x3 x4 x5 acc = k0_pay2 x0 x1 acc := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 acc)]
  unfold kernelRun0_B
  dsimp only
  rw [View.canon_unit_zero hz]
  simp only [View.readAt_eq_ld, harg3.read_unread, harg4.read_unread, harg10.read_unread,
    View.ld_unit_zero (S := S1024x1024) hz]

/-- The last step (k = 3): the scratch ends the same way, -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x65 .f32) (harg7 : arg7.IsWhole) (arg8 : Memref sig .tc .vmem S1024x65 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x1024 .bf16) (x1 : Vec F S1024x1024 .bf16) (x2 : Vec F S1x1024 .f32) (x3 : Vec F S1x1024 .f32) (x4 : Vec F S1024x65 .f32) (x5 : Vec F S1024x65 .f32) (acc : Vec F S1024x1024 .f32) :
    sout0_C_0 c i arg3 harg3 arg4 harg4 arg5 harg5 arg6 harg6 arg7 harg7 arg8 harg8 arg9 harg9 arg10 harg10 hc0 hc1 x0 x1 x2 x3 x4 x5 acc = k0_pay2 x0 x1 acc := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 acc)]
  unfold kernelRun0_C
  dsimp only
  sl_unfold_words
  rw [View.canon_unit_zero hz]
  simp only [View.readAt_eq_ld, harg3.read_unread, harg4.read_unread, harg10.read_unread,
    View.ld_unit_zero (S := S1024x1024) hz]

/-- and the output block is the epilogue of the updated accumulator: the body reads the scratch back after storing
    it. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x65 .f32) (harg7 : arg7.IsWhole) (arg8 : Memref sig .tc .vmem S1024x65 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x1024 .bf16) (x1 : Vec F S1024x1024 .bf16) (x2 : Vec F S1x1024 .f32) (x3 : Vec F S1x1024 .f32) (x4 : Vec F S1024x65 .f32) (x5 : Vec F S1024x65 .f32) (acc : Vec F S1024x1024 .f32) :
    out0_C_6 c i arg3 harg3 arg4 harg4 arg5 harg5 arg6 harg6 arg7 harg7 arg8 harg8 arg9 harg9 arg10 harg10 hc0 hc1 x0 x1 x2 x3 x4 x5 acc = k0_pay3 x4 x5 x2 (k0_pay2 x0 x1 acc) x3 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 acc)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg10.read_unread, View.readCov_unit_zero (S := S1024x1024) _ hz,
    View.ld_unit_zero (S := S1024x1024) hz, View.ld_unit_zero (S := S1024x65) hz, View.ld_unit_zero (S := S1x1024) hz]

/-- The first step (k = 0): the body stores the zero block, reads it back and accumulates over it. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x65 .f32) (harg7 : arg7.IsWhole) (arg8 : Memref sig .tc .vmem S1024x65 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i) (x0 : Vec F S1024x1024 .bf16) (x1 : Vec F S1024x1024 .bf16) (x2 : Vec F S1x1024 .f32) (x3 : Vec F S1x1024 .f32) (x4 : Vec F S1024x65 .f32) (x5 : Vec F S1024x65 .f32) :
    sout0_A_0 c i arg3 harg3 arg4 harg4 arg5 harg5 arg6 harg6 arg7 harg7 arg8 harg8 arg9 harg9 arg10 harg10 hc0 hc1 x0 x1 x2 x3 x4 x5 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

end Cert.KernelPieces
end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.LibTransposedRhs.lean ====
/-
  x · yᵀ read at an entry: a contraction of the LAST axis of both operands.

  For the library's dimension-number record `DotDims.transposedRhs M K N` — an `[M, K]` matrix against an `[N, K]`
  matrix, contracting axis 1 of each, result `[M, N]`: what `einsum("bi,hi->bh")` lowers to — the matrix unit's product
  into a zero accumulator and the host's dot_general, at the ideal instance, read at `(p, q)` are
      Σ_i x(p, i) · y(q, i),   i over the K contracted positions.
  A printed record whose six lists are [1], [1], [0], [0], [], [] over those shapes IS `DotDims.transposedRhs M K N`,
  by `rfl`. Generic in M, K, N. Imports the one-axis contraction lemmas of LibContract (same directory).
-/
import proofs.«154536_j11123965297141_2_alg».proof.Proof.LibContract

noncomputable section

namespace Cert.LibTransposedRhs

open Idealize.ShloMosaic Idealize.ShloMosaic.ValueIdx
open scoped BigOperators

variable (M K N : ℕ)

/-- The left operand's row is the result's row. -/
theorem lhs_row (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the result's column. -/
theorem rhs_row (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The left operand's index at result `(p, q)` and contracted position `i` is `(p, i)`. -/
theorem lhsIdx_eq (p : Fin M) (q : Fin N) (c : (DotDims.transposedRhs M K N).contr.Idx) (i : Fin K)
    (hc : (c ⟨0, Nat.one_pos⟩).val = i.val) : (DotDims.transposedRhs M K N).lhsIdx (ix2 p q) c = ix2 p i :=
  funext fun a => Fin.ext (by
    match a with
    | ⟨0, _⟩ => exact lhs_row M K N _ _
    | ⟨1, _⟩ => exact ((DotDims.transposedRhs M K N).lhsIdx_val_of_single rfl _ c).trans hc)

/-- The right operand's index at result `(p, q)` and contracted position `i` is `(q, i)`. -/
theorem rhsIdx_eq (p : Fin M) (q : Fin N) (c : (DotDims.transposedRhs M K N).contr.Idx) (i : Fin K)
    (hc : (c ⟨0, Nat.one_pos⟩).val = i.val) : (DotDims.transposedRhs M K N).rhsIdx (ix2 p q) c = ix2 q i :=
  funext fun a => Fin.ext (by
    match a with
    | ⟨0, _⟩ => exact rhs_row M K N _ _
    | ⟨1, _⟩ => exact ((DotDims.transposedRhs M K N).rhsIdx_val_of_single rfl _ c).trans hc)

/-- The matrix unit's product into a zero accumulator at `(p, q)`. -/
theorem matmul_apply {φ₁ φ₂ : FTy} (prec : Option ContractPrecision) (x : FVec Ideal ⟨2, ![M, K]⟩ φ₁)
    (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ i : Fin K, x (ix2 p i) * y (ix2 q i) :=
  LibContract.matmul_zero_apply (DotDims.transposedRhs M K N) K rfl rfl prec x y (ix2 p q) (fun i => ix2 p i)
    (fun i => ix2 q i) (fun c i hc => lhsIdx_eq M K N p q c i hc) (fun c i hc => rhsIdx_eq M K N p q c i hc)

/-- The host's dot_general at `(p, q)`. -/
theorem dotGeneral_apply {φ₁ φ₂ : FTy} (prec : Option ContractPrecision) (sched : HostSchedule)
    (x : FVec Ideal ⟨2, ![M, K]⟩ φ₁) (y : FVec Ideal ⟨2, ![N, K]⟩ φ₂) (p : Fin M) (q : Fin N) :
    FloatOps.dotGeneral (DotDims.transposedRhs M K N) prec sched x y (ix2 p q)
      = ∑ i : Fin K, x (ix2 p i) * y (ix2 q i) :=
  LibContract.dotGeneral_apply (DotDims.transposedRhs M K N) K rfl rfl prec sched x y (ix2 p q) (fun i => ix2 p i)
    (fun i => ix2 q i) (fun c i hc => lhsIdx_eq M K N p q c i hc) (fun c i hc => rhsIdx_eq M K N p q c i hc)

end Cert.LibTransposedRhs

end
-- ==== Proof.Payload.lean ====
/-
  The body's three payloads read at one entry (p, q) of the 1024 × 1024 block, over the extended reals.

  Payload 1 is the zero block. Payload 2 is the accumulator plus one block of the product x · wᵀ: the contraction runs over
  the LAST axis of both operands, so entry (p, q) adds the sum over i of x(p, i) · w(q, i). Payload 3 is the epilogue:
  scale(q) · acc(p, q) + bias(q), the two rows being [1, 1024] blocks laid under every row, plus the small product
  t · uᵀ over its 65 columns.
-/
import proofs.«154536_j11123965297141_2_alg».proof.Proof.Gen.KernelIdeal.Skeleton
import proofs.«154536_j11123965297141_2_alg».proof.Proof.LibTransposedRhs
import Idealize.ShloMosaic.Lib.ValueIdx
import Idealize.ShloMosaic.Lib.ValueLayout
import Idealize.ShloMosaic.Lib.Pipeline.Value

noncomputable section

namespace Cert.KernelPayload

open Cert.KernelIdeal Cert.KernelIdeal.Gen Idealize.ShloMosaic Idealize.ShloMosaic.ValueIdx Idealize.ShloMosaic.Pipeline
open scoped BigOperators

/-- The zero block at any entry is the zero word. -/
theorem pay1_apply (p q : Fin 1024) : k0_pay1 (F := Ideal) (ix2 p q) = Ideal.ofBits .f32 0x00000000#32 := by
  unfold k0_pay1
  rw [shapeCast_self]
  rfl

/-- The accumulation step at (p, q): what was there plus the block's share of row p of x against row q of w. -/
theorem pay2_apply (x0 x1 : Vec Ideal S1024x1024 .bf16) (acc : Vec Ideal S1024x1024 .f32) (p q : Fin 1024) :
    k0_pay2 x0 x1 acc (ix2 p q) = acc (ix2 p q) + ∑ i : Fin 1024, x0 (ix2 p i) * x1 (ix2 q i) := by
  unfold k0_pay2
  rw [shapeCast_self, shapeCast_self, shapeCast_self, addf_apply]
  exact congrArg (acc (ix2 p q) + ·) (Cert.LibTransposedRhs.matmul_apply 1024 1024 1024 none x0 x1 p q)

/-- The epilogue at (p, q). -/
theorem pay3_apply (x4 x5 : Vec Ideal S1024x65 .f32) (x2 : Vec Ideal S1x1024 .f32) (acc : Vec Ideal S1024x1024 .f32)
    (x3 : Vec Ideal S1x1024 .f32) (p q : Fin 1024) :
    k0_pay3 x4 x5 x2 acc x3 (ix2 p q)
      = ((x2 (ix2 (0 : Fin 1) q) * acc (ix2 p q)) + x3 (ix2 (0 : Fin 1) q)) + ∑ i : Fin 65, x4 (ix2 p i) * x5 (ix2 q i) := by
  unfold k0_pay3
  rw [shapeCast_self, shapeCast_self, shapeCast_self, shapeCast_self, addf_apply, addf_apply, mulf_apply,
    broadcastTo_1b_ab_apply, broadcastTo_1b_ab_apply]
  exact congrArg (((x2 (ix2 (0 : Fin 1) q) * acc (ix2 p q)) + x3 (ix2 (0 : Fin 1) q)) + ·)
    (Cert.LibTransposedRhs.matmul_apply 1024 65 1024 none x4 x5 p q)

end Cert.KernelPayload

end
-- ==== Proof.Fold.lean ====
/-
  The accumulator over a run of four consecutive grid points, read at one entry.

  The grid's last axis is the contraction axis: points 4b, 4b+1, 4b+2, 4b+3 share the output block and walk the four
  column blocks of the two matrix operands. The first point of a run stores the zero block and adds its block product;
  each later point adds its own. So after j + 1 points the accumulator at entry (p, q) is the zero word plus the sum,
  over those points, of the point's addend: the sum over the 1024 columns k of the point's blocks,
  x-block(p, k) · w-block(q, k).
-/
import proofs.«154536_j11123965297141_2_alg».proof.Proof.Gen.KernelIdeal.Value
import proofs.«154536_j11123965297141_2_alg».proof.Proof.Pieces
import proofs.«154536_j11123965297141_2_alg».proof.Proof.Payload

set_option maxRecDepth 16384

noncomputable section

namespace Cert.KernelFold

open Cert.KernelIdeal Cert.KernelIdeal.Gen Cert.KernelIdeal.Value
open Idealize.ShloMosaic Idealize.ShloMosaic.TcCoe Idealize.ShloMosaic.ValueIdx Idealize.SL.Sem
open scoped BigOperators

variable (m : (ℓ : Loc nD τ sig) → Buf (Elt Ideal) ℓ)

/-- One block product at entry (p, q): row p of the first block against row q of the second. -/
def blockProd (a b : Vec Ideal S1024x1024 .bf16) (i : S1024x1024.Idx) : EReal :=
  ∑ k : Fin 1024, a (ix2 (i 0) k) * b (ix2 (i 1) k)

/-- The addend of grid point n: the block product of the point's two matrix blocks (zero past the grid, where it is
    never used). -/
def addend (c : Dev nD) (n : ℕ) (i : S1024x1024.Idx) : EReal :=
  if hb : n < cfg0.N then blockProd (iblk m c 0 ⟨n, hb⟩) (iblk m c 1 ⟨n, hb⟩) i else 0

theorem pay2_at (x0 x1 : Vec Ideal S1024x1024 .bf16) (acc : Vec Ideal S1024x1024 .f32) (i : S1024x1024.Idx) :
    k0_pay2 x0 x1 acc i = acc i + blockProd x0 x1 i := by
  obtain ⟨p, q, rfl⟩ : ∃ (p q : Fin 1024), i = ix2 p q := ⟨i 0, i 1, eq_ix2 i⟩
  exact Cert.KernelPayload.pay2_apply x0 x1 acc p q

theorem pay1_at (i : S1024x1024.Idx) : k0_pay1 (F := Ideal) i = Ideal.ofBits .f32 0x00000000#32 := by
  obtain ⟨p, q, rfl⟩ : ∃ (p q : Fin 1024), i = ix2 p q := ⟨i 0, i 1, eq_ix2 i⟩
  exact Cert.KernelPayload.pay1_apply p q

/-- The first point of a run: the zero word plus the point's addend, whatever the scratch held. -/
theorem reset_at (c : Dev nD) (n : ℕ) (hb : n < cfg0.N) (h0 : n % 4 = 0) (junk : Vec Ideal S1024x1024 .f32)
    (i : S1024x1024.Idx) :
    scAt0_0 m c n hb junk i = Ideal.ofBits .f32 0x00000000#32 + addend m c n i := by
  have h1 : ¬n % 4 = 3 := by omega
  unfold scAt0_0
  rw [dif_pos h0, dif_neg h1]
  refine (congrFun (Cert.KernelPieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) i).trans ?_
  rw [pay2_at, pay1_at]
  unfold addend
  rw [dif_pos hb]

/-- A later point of a run: what the point before left plus the point's addend. -/
theorem step_at (c : Dev nD) (n : ℕ) (hb : n < cfg0.N) (h0 : ¬n % 4 = 0) (acc : Vec Ideal S1024x1024 .f32)
    (i : S1024x1024.Idx) :
    scAt0_0 m c n hb acc i = acc i + addend m c n i := by
  unfold scAt0_0
  rw [dif_neg h0]
  by_cases h1 : n % 4 = 3
  · rw [dif_pos h1]
    refine (congrFun (Cert.KernelPieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) i).trans ?_
    rw [pay2_at]
    unfold addend
    rw [dif_pos hb]
  · rw [dif_neg h1]
    refine (congrFun (Cert.KernelPieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) i).trans ?_
    rw [pay2_at]
    unfold addend
    rw [dif_pos hb]

/-- The accumulator after the last point of a run (t % 4 = 3): the zero word plus the four addends of the run. -/
theorem scratch_after (c : Dev nD) (t : Fin cfg0.N) (h3 : t.val % 4 = 3) (i : S1024x1024.Idx) :
    (outsAt0 m c t.val t.isLt).2 i
      = Ideal.ofBits .f32 0x00000000#32 + ∑ s ∈ Finset.range 4, addend m c (4 * (t.val / 4) + s) i := by
  have hN : cfg0.N = 64 := N_0
  have hlt := t.isLt
  have key : ∀ (j : ℕ) (hj : j ≤ 3) (h : 4 * (t.val / 4) + j < cfg0.N),
      Pipeline.accAt (fun n h => scAt0_0 m c n h (VS0_0.read (Elt Ideal) VS0_0.junk)) (scAt0_0 m c)
          (4 * (t.val / 4)) j h i
        = Ideal.ofBits .f32 0x00000000#32 + ∑ s ∈ Finset.range (j + 1), addend m c (4 * (t.val / 4) + s) i :=
    fun j hj h => Pipeline.accAt_add_apply (N := cfg0.N)
      (fun n h => scAt0_0 m c n h (VS0_0.read (Elt Ideal) VS0_0.junk)) (scAt0_0 m c)
      (fun _ => Ideal.ofBits .f32 0x00000000#32) (addend m c) (4 * (t.val / 4)) 3
      (fun h i => reset_at m c _ h (by omega) _ i)
      (fun n h acc i h1 h2 => step_at m c n h (by omega) acc i)
      j hj h i
  rw [soutsAt0_0_eq m c t, key (t.val % 4) (by omega) _, h3]

end Cert.KernelFold

end
-- ==== Proof.KernelValue.lean ====
/-
  From blocks to the whole result array.

  The grid is 4 × 4 × 4: point t = 16·i + 4·j + k works on output block (i, j) with the k-th column block of the two
  matrix operands, and only the last point of each run of four (k = 3) writes its output block back. Block entries are
  array entries: block coordinate (p, ·) of a window at block index b is array coordinate 1024·b + p. So what the point
  16·i + 4·j + 3 writes back at (p, q) is the kernel's arrangement of entry (T, O) = (1024·i + p, 1024·j + q):
      (scale(O) · (0 + ∑ over the four column blocks s, ∑ k, x(T, 1024·s + k) · Q(O, 1024·s + k)) + bias(O))
        + ∑ over the 65 columns r, taug(T, r) · uaug(O, r),
  and the sixteen flushing points' blocks cover the array.
-/
import proofs.«154536_j11123965297141_2_alg».proof.Proof.Fold
import Idealize.ShloMosaic.Lib.Pipeline.Value

set_option maxRecDepth 16384

noncomputable section

namespace Cert.KernelValue

open Cert.KernelIdeal Cert.KernelIdeal.Gen Cert.KernelIdeal.Value Cert.KernelFold
open Idealize.ShloMosaic Idealize.ShloMosaic.TcCoe Idealize.ShloMosaic.ValueIdx Idealize.SL.Sem
open Idealize.ShloMosaic.Pipeline (Dat)
open scoped BigOperators

/-- Coordinate p of block b (read modulo 4, so that it is total) as a coordinate of the 4096-long axis. -/
def at4 (b : ℕ) (p : Fin 1024) : Fin 4096 :=
  ⟨b % 4 * 1024 + p.val, by have := p.isLt; have := Nat.mod_lt b (show 0 < 4 by decide); omega⟩

/-- The kernel's arrangement of entry (T, O), over the six arrays its windows read. -/
def entry (X Q : S4096x4096.Idx → EReal) (Sc Bi : S1x4096.Idx → EReal) (Ta Ua : S4096x65.Idx → EReal)
    (T O : Fin 4096) : EReal :=
  ((Sc (ix2 (0 : Fin 1) O) * (Ideal.ofBits .f32 0x00000000#32
        + ∑ s ∈ Finset.range 4, ∑ k : Fin 1024, X (ix2 T (at4 s k)) * Q (ix2 O (at4 s k))))
      + Bi (ix2 (0 : Fin 1) O))
    + ∑ r : Fin 65, Ta (ix2 T r) * Ua (ix2 O r)

variable (m : (ℓ : Loc nD τ sig) → Buf (Elt Ideal) ℓ)

/-- The six arrays the windows read, and a point's six blocks, as arrays of extended reals. -/
abbrev W16 (c : Dev nD) : S4096x4096.Idx → EReal := V m c main_v16
abbrev W15 (c : Dev nD) : S4096x4096.Idx → EReal := V m c main_v15
abbrev W26 (c : Dev nD) : S1x4096.Idx → EReal := V m c main_v26
abbrev W27 (c : Dev nD) : S1x4096.Idx → EReal := V m c main_v27
abbrev W24 (c : Dev nD) : S4096x65.Idx → EReal := V m c main_v24
abbrev W25 (c : Dev nD) : S4096x65.Idx → EReal := V m c main_v25
abbrev B0 (c : Dev nD) (t : Fin cfg0.N) : S1024x1024.Idx → EReal := iblk m c 0 t
abbrev B1 (c : Dev nD) (t : Fin cfg0.N) : S1024x1024.Idx → EReal := iblk m c 1 t
abbrev B2 (c : Dev nD) (t : Fin cfg0.N) : S1x1024.Idx → EReal := iblk m c 2 t
abbrev B3 (c : Dev nD) (t : Fin cfg0.N) : S1x1024.Idx → EReal := iblk m c 3 t
abbrev B4 (c : Dev nD) (t : Fin cfg0.N) : S1024x65.Idx → EReal := iblk m c 4 t
abbrev B5 (c : Dev nD) (t : Fin cfg0.N) : S1024x65.Idx → EReal := iblk m c 5 t

/-- The result array, entry by entry. -/
def G (c : Dev nD) : S4096x4096.Idx → EReal := fun i =>
  entry (W16 m c) (W15 m c) (W26 m c) (W27 m c) (W24 m c) (W25 m c) (i 0) (i 1)

/-- The seven windows' block indices at point t = 16·i + 4·j + k, decided over the 64 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = 0
    ∧ win0_5.index t (0 : Fin 2) = t.val / 4 % 4 ∧ win0_5.index t (1 : Fin 2) = 0
    ∧ win0_6.index t (0 : Fin 2) = t.val / 16 ∧ win0_6.index t (1 : Fin 2) = t.val / 4 % 4 :=
  (by decide +kernel : ∀ t : Fin grid0.N, _)

theorem lt64 (t : Fin cfg0.N) : t.val < 64 := lt_of_lt_of_eq t.isLt N_0

/-! ### Block entries are array entries -/

theorem blk0 (c : Dev nD) (t : Fin cfg0.N) (p k : Fin 1024) :
    B0 m c t (ix2 p k) = W16 m c (ix2 (at4 (t.val / 16) p) (at4 (t.val % 4) k)) := by
  obtain ⟨e0, e1, -⟩ := idx_facts t
  have := lt64 t
  show V m c main_v16 (((cfg0.win 0).blk t).view.emb (ix2 p k)) = _
  refine congrArg (V m c main_v16) (funext fun a => Fin.ext ?_)
  match a with
  | ⟨0, _⟩ => show win0_0.index t (0 : Fin 2) * 1024 + 1 * p.val = t.val / 16 % 4 * 1024 + p.val; rw [e0]; omega
  | ⟨1, _⟩ => show win0_0.index t (1 : Fin 2) * 1024 + 1 * k.val = t.val % 4 % 4 * 1024 + k.val; rw [e1]; omega

theorem blk1 (c : Dev nD) (t : Fin cfg0.N) (q k : Fin 1024) :
    B1 m c t (ix2 q k) = W15 m c (ix2 (at4 (t.val / 4 % 4) q) (at4 (t.val % 4) k)) := by
  obtain ⟨-, -, e0, e1, -⟩ := idx_facts t
  show V m c main_v15 (((cfg0.win 1).blk t).view.emb (ix2 q k)) = _
  refine congrArg (V m c main_v15) (funext fun a => Fin.ext ?_)
  match a with
  | ⟨0, _⟩ => show win0_1.index t (0 : Fin 2) * 1024 + 1 * q.val = t.val / 4 % 4 % 4 * 1024 + q.val; rw [e0]; omega
  | ⟨1, _⟩ => show win0_1.index t (1 : Fin 2) * 1024 + 1 * k.val = t.val % 4 % 4 * 1024 + k.val; rw [e1]; omega

theorem blk2 (c : Dev nD) (t : Fin cfg0.N) (q : Fin 1024) :
    B2 m c t (ix2 (0 : Fin 1) q) = W26 m c (ix2 (0 : Fin 1) (at4 (t.val / 4 % 4) q)) := by
  obtain ⟨-, -, -, -, e0, e1, -⟩ := idx_facts t
  show V m c main_v26 (((cfg0.win 2).blk t).view.emb (ix2 (0 : Fin 1) q)) = _
  refine congrArg (V m c main_v26) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 4 % 4 % 4 * 1024 + q.val; rw [e1]; omega

theorem blk3 (c : Dev nD) (t : Fin cfg0.N) (q : Fin 1024) :
    B3 m c t (ix2 (0 : Fin 1) q) = W27 m c (ix2 (0 : Fin 1) (at4 (t.val / 4 % 4) q)) := by
  obtain ⟨-, -, -, -, -, -, e0, e1, -⟩ := idx_facts t
  show V m c main_v27 (((cfg0.win 3).blk t).view.emb (ix2 (0 : Fin 1) q)) = _
  refine congrArg (V m c main_v27) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = t.val / 4 % 4 % 4 * 1024 + q.val; rw [e1]; omega

theorem blk4 (c : Dev nD) (t : Fin cfg0.N) (p : Fin 1024) (r : Fin 65) :
    B4 m c t (ix2 p r) = W24 m c (ix2 (at4 (t.val / 16) p) r) := by
  obtain ⟨-, -, -, -, -, -, -, -, e0, e1, -⟩ := idx_facts t
  have := lt64 t
  show V m c main_v24 (((cfg0.win 4).blk t).view.emb (ix2 p r)) = _
  refine congrArg (V m c main_v24) (funext fun a => Fin.ext ?_)
  match a with
  | ⟨0, _⟩ => show win0_4.index t (0 : Fin 2) * 1024 + 1 * p.val = t.val / 16 % 4 * 1024 + p.val; rw [e0]; omega
  | ⟨1, _⟩ => show win0_4.index t (1 : Fin 2) * 65 + 1 * r.val = r.val; rw [e1]; omega

theorem blk5 (c : Dev nD) (t : Fin cfg0.N) (q : Fin 1024) (r : Fin 65) :
    B5 m c t (ix2 q r) = W25 m c (ix2 (at4 (t.val / 4 % 4) q) r) := by
  obtain ⟨-, -, -, -, -, -, -, -, -, -, e0, e1, -⟩ := idx_facts t
  show V m c main_v25 (((cfg0.win 5).blk t).view.emb (ix2 q r)) = _
  refine congrArg (V m c main_v25) (funext fun a => Fin.ext ?_)
  match a with
  | ⟨0, _⟩ => show win0_5.index t (0 : Fin 2) * 1024 + 1 * q.val = t.val / 4 % 4 % 4 * 1024 + q.val; rw [e0]; omega
  | ⟨1, _⟩ => show win0_5.index t (1 : Fin 2) * 65 + 1 * r.val = r.val; rw [e1]; omega

/-! ### What the last point of a run writes back -/

set_option maxHeartbeats 1000000 in
/-- At a point with k = 3 the output block is the epilogue of the accumulator the same point leaves. -/
theorem outC (c : Dev nD) (t : Fin cfg0.N) (h0 : ¬t.val % 4 = 0) (h3 : t.val % 4 = 3) :
    (outsAt0 m c t.val t.isLt).1
      = k0_pay3 (iblk m c 4 t) (iblk m c 5 t) (iblk m c 2 t) ((outsAt0 m c t.val t.isLt).2) (iblk m c 3 t) := by
  rw [outsAt0_C m c t h0 h3]
  dsimp only
  rw [Cert.KernelPieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2,
    Cert.KernelPieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).2]

/-- The addend of a point of the run of t, over the arrays. -/
theorem addend_run (c : Dev nD) (t : Fin cfg0.N) (s : ℕ) (hs : s < 4) (p q : Fin 1024) :
    addend m c (4 * (t.val / 4) + s) (ix2 p q)
      = ∑ k : Fin 1024, W16 m c (ix2 (at4 (t.val / 16) p) (at4 s k)) * W15 m c (ix2 (at4 (t.val / 4 % 4) q) (at4 s k)) := by
  have h64 := lt64 t
  have hN : cfg0.N = 64 := N_0
  have hb : 4 * (t.val / 4) + s < cfg0.N := by omega
  unfold addend
  rw [dif_pos hb]
  show (∑ k : Fin 1024, B0 m c ⟨4 * (t.val / 4) + s, hb⟩ (ix2 p k) * B1 m c ⟨4 * (t.val / 4) + s, hb⟩ (ix2 q k)) = _
  refine Finset.sum_congr rfl fun k _ => ?_
  rw [blk0 m c ⟨4 * (t.val / 4) + s, hb⟩ p k, blk1 m c ⟨4 * (t.val / 4) + s, hb⟩ q k]
  have a1 : at4 ((4 * (t.val / 4) + s) / 16) p = at4 (t.val / 16) p :=
    Fin.ext (by show (4 * (t.val / 4) + s) / 16 % 4 * 1024 + p.val = t.val / 16 % 4 * 1024 + p.val; omega)
  have a2 : at4 ((4 * (t.val / 4) + s) % 4) k = at4 s k :=
    Fin.ext (by show (4 * (t.val / 4) + s) % 4 % 4 * 1024 + k.val = s % 4 * 1024 + k.val; omega)
  have a3 : at4 ((4 * (t.val / 4) + s) / 4 % 4) q = at4 (t.val / 4 % 4) q :=
    Fin.ext (by show (4 * (t.val / 4) + s) / 4 % 4 % 4 * 1024 + q.val = t.val / 4 % 4 % 4 * 1024 + q.val; omega)
  show W16 m c (ix2 (at4 ((4 * (t.val / 4) + s) / 16) p) (at4 ((4 * (t.val / 4) + s) % 4) k))
      * W15 m c (ix2 (at4 ((4 * (t.val / 4) + s) / 4 % 4) q) (at4 ((4 * (t.val / 4) + s) % 4) k)) = _
  rw [a1, a2, a3]

/-- WHAT A FLUSHING POINT WRITES BACK is its block of the array G. -/
theorem flushed_eq (c : Dev nD) (t : Fin cfg0.N) (hf : (cfg0.win 6).flush t = true) :
    (dats m 0 c).flushed 6 t = ((cfg0.win 6).blk t).view.read (Elt Ideal) (G m c) := by
  have h3 : t.val % 4 = 3 := (flush0_6 t).mp hf
  have h0 : ¬t.val % 4 = 0 := by omega
  have h64 := lt64 t
  obtain ⟨-, -, -, -, -, -, -, -, -, -, -, -, e0, e1⟩ := idx_facts t
  rw [flushed6 m c t]
  funext j
  obtain ⟨p, q, rfl⟩ : ∃ (p q : Fin 1024), j = ix2 p q := ⟨j 0, j 1, eq_ix2 j⟩
  show (outsAt0 m c t.val t.isLt).1 (ix2 p q) = G m c (((cfg0.win 6).blk t).view.emb (ix2 p q))
  have E0 : (((cfg0.win 6).blk t).view.emb (ix2 p q)) 0 = at4 (t.val / 16) p :=
    Fin.ext (by show win0_6.index t (0 : Fin 2) * 1024 + 1 * p.val = t.val / 16 % 4 * 1024 + p.val; rw [e0]; omega)
  have E1 : (((cfg0.win 6).blk t).view.emb (ix2 p q)) 1 = at4 (t.val / 4 % 4) q :=
    Fin.ext (by show win0_6.index t (1 : Fin 2) * 1024 + 1 * q.val = t.val / 4 % 4 % 4 * 1024 + q.val; rw [e1]; omega)
  have hS1 : (∑ s ∈ Finset.range 4, addend m c (4 * (t.val / 4) + s) (ix2 p q))
      = ∑ s ∈ Finset.range 4, ∑ k : Fin 1024,
          W16 m c (ix2 (at4 (t.val / 16) p) (at4 s k)) * W15 m c (ix2 (at4 (t.val / 4 % 4) q) (at4 s k)) :=
    Finset.sum_congr rfl fun s hs => addend_run m c t s (Finset.mem_range.mp hs) p q
  have hS2 : (∑ r : Fin 65, B4 m c t (ix2 p r) * B5 m c t (ix2 q r))
      = ∑ r : Fin 65, W24 m c (ix2 (at4 (t.val / 16) p) r) * W25 m c (ix2 (at4 (t.val / 4 % 4) q) r) :=
    Finset.sum_congr rfl fun r _ => by rw [blk4 m c t p r, blk5 m c t q r]
  unfold G
  rw [E0, E1, outC m c t h0 h3, Cert.KernelPayload.pay3_apply, scratch_after m c t h3]
  unfold entry
  exact congrArg₂ (· + ·)
    (congrArg₂ (· + ·)
      (congrArg₂ (· * ·) (blk2 m c t q) (congrArg (Ideal.ofBits .f32 0x00000000#32 + ·) hS1))
      (blk3 m c t q))
    hS2

/-! ### The cover, and the array after the run -/

theorem mem_blk (t : Fin cfg0.N) (i : S4096x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v28).slice (win0_6.rect t)).set ↔ _
  rw [View.set_slice_whole, Rect.mem_set_unit]
  exact Iff.rfl

/-- The array after the run is G: entry (T, O) lies in the block of the point 16·(T / 1024) + 4·(O / 1024) + 3. -/
theorem final (c : Dev nD) : (dats m 0 c).arrAt 6 cfg0.N = G m c :=
  (dats m 0 c).arrAt_eq_of_cover 6 (G m c) (fun t hf => flushed_eq m c t hf) fun i => by
    have hN : cfg0.N = 64 := N_0
    have hi0 : (i 0).val < 4096 := (i 0).isLt
    have hi1 : (i 1).val < 4096 := (i 1).isLt
    have hlt : (i 0).val / 1024 * 16 + (i 1).val / 1024 * 4 + 3 < cfg0.N := by omega
    refine ⟨⟨(i 0).val / 1024 * 16 + (i 1).val / 1024 * 4 + 3, hlt⟩, (flush0_6 _).mpr (by show ((i 0).val / 1024 * 16 + (i 1).val / 1024 * 4 + 3) % 4 = 3; omega), ?_⟩
    rw [mem_blk]
    obtain ⟨-, -, -, -, -, -, -, -, -, -, -, -, e0, e1⟩ := idx_facts ⟨(i 0).val / 1024 * 16 + (i 1).val / 1024 * 4 + 3, hlt⟩
    intro a
    match a with
    | ⟨0, _⟩ =>
      show win0_6.index ⟨(i 0).val / 1024 * 16 + (i 1).val / 1024 * 4 + 3, hlt⟩ (0 : Fin 2) * 1024 ≤ (i 0).val
        ∧ (i 0).val < win0_6.index ⟨(i 0).val / 1024 * 16 + (i 1).val / 1024 * 4 + 3, hlt⟩ (0 : Fin 2) * 1024 + 1024
      rw [e0]
      show ((i 0).val / 1024 * 16 + (i 1).val / 1024 * 4 + 3) / 16 * 1024 ≤ (i 0).val
        ∧ (i 0).val < ((i 0).val / 1024 * 16 + (i 1).val / 1024 * 4 + 3) / 16 * 1024 + 1024
      omega
    | ⟨1, _⟩ =>
      show win0_6.index ⟨(i 0).val / 1024 * 16 + (i 1).val / 1024 * 4 + 3, hlt⟩ (1 : Fin 2) * 1024 ≤ (i 1).val
        ∧ (i 1).val < win0_6.index ⟨(i 0).val / 1024 * 16 + (i 1).val / 1024 * 4 + 3, hlt⟩ (1 : Fin 2) * 1024 + 1024
      rw [e1]
      show ((i 0).val / 1024 * 16 + (i 1).val / 1024 * 4 + 3) / 4 % 4 * 1024 ≤ (i 1).val
        ∧ (i 1).val < ((i 0).val / 1024 * 16 + (i 1).val / 1024 * 4 + 3) / 4 % 4 * 1024 + 1024
      omega

/-- The kernel's run, read: the result array at G, the ten arguments unchanged. -/
theorem run (ρ : Dev nD → PrngReg) : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelValue

end
-- ==== Proof.LibGatherCol.lean ====
/-
  A column lookup read at an index. `table[:, idx]` for a table of `N` rows of `D` columns and `R` column numbers lowers
  to a gather whose start indices are the column numbers as an `R × 1` array: offset axis 0, operand axis 1 collapsed,
  start index map `[1]`, index vector axis 1, slice sizes `[N, 1]`. Result element `(n, e)` is the table's element in
  row `n` of the column that the start index `idx[e, 0]` names, read as a signed number and clamped into `[0, D − 1]`.
  Which column is read depends on the start indices only, never on the table: the lookup commutes with anything done to
  the table row by row.
-/
import Idealize.ShloMosaic.Lib.ValueIdx

namespace Cert.LibGatherCol

open Idealize.ShloMosaic Idealize.ShloMosaic.ValueIdx

variable {α : Type}

/-- Those dimension numbers for a table `[N, D]`, start indices `[R, 1]` and result `[N, R]`. -/
abbrev colDims (N D R : Nat)
    (wf : GatherDims.WF ⟨2, ![N, D]⟩ ⟨2, ![R, 1]⟩ ⟨2, ![N, R]⟩ [0] [1] [] [1] [] 1 ![N, 1]) :
    GatherDims ⟨2, ![N, D]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- The column the start index `idx[e, 0]` names: read signed, clamped into `[0, D − 1]`. -/
def col {D R w : Nat} (hD : 0 < D) (idx : IVec ⟨2, ![R, 1]⟩ w) (e : Fin R) : Fin D :=
  ⟨min (idx (ix2 e (0 : Fin 1))).toInt.toNat (D - 1), by omega⟩

section
variable {N D R w : Nat}
  (wf : GatherDims.WF ⟨2, ![N, D]⟩ ⟨2, ![R, 1]⟩ ⟨2, ![N, R]⟩ [0] [1] [] [1] [] 1 ![N, 1])
  (idx : IVec ⟨2, ![R, 1]⟩ w) (n : Fin N) (e : Fin R)

/-- On the table's column axis the operand index is the clamped start index: the axis is collapsed and there is no
    batching. -/
theorem operand_col :
    (colDims N D R wf).start (ix2 n e) idx 1 + (colDims N D R wf).batchCoord (ix2 n e) 1
        + (colDims N D R wf).offCoord (ix2 n e) 1
      = min (idx (ix2 e (0 : Fin 1))).toInt.toNat (D - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims N D R wf).startIndexMap from List.mem_singleton.mpr rfl)]
  have hsi : (colDims N D R wf).siIdx (ix2 n e) ⟨List.idxOf (1 : Fin 2) (colDims N D R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's row axis the operand index is the result's row: the start index map does not name the axis, and
    it is the one offset axis. -/
theorem operand_row :
    (colDims N D R wf).start (ix2 n e) idx 0 + (colDims N D R wf).batchCoord (ix2 n e) 0
        + (colDims N D R wf).offCoord (ix2 n e) 0
      = n.val := by
  have h1 : (0 : Fin 2) ∉ (colDims N D R wf).startIndexMap := by
    show (0 : Fin 2) ∉ [(1 : Fin 2)]
    decide
  have hk : (0 : Fin 2) ∈ (colDims N D R wf).sKept :=
    ((GatherDims.mem_sKept _ _).mpr ⟨by show (0 : Fin 2) ∉ [(1 : Fin 2)]; decide, List.not_mem_nil⟩)
  rw [GatherDims.batchCoord_eq_zero _ _ _ List.not_mem_nil]
  unfold GatherDims.start GatherDims.offCoord
  rw [dif_neg h1, dif_pos hk]
  simp only [Nat.zero_add]
  rfl

end

/-- The gather read at `(n, e)`: row `n` of the column the start index `idx[e, 0]` names. -/
theorem gather_col_apply {N D R w : Nat} (hD : 0 < D)
    (wf : GatherDims.WF ⟨2, ![N, D]⟩ ⟨2, ![R, 1]⟩ ⟨2, ![N, R]⟩ [0] [1] [] [1] [] 1 ![N, 1])
    (x : (⟨2, ![N, D]⟩ : Shape).Idx → α) (idx : IVec ⟨2, ![R, 1]⟩ w) (n : Fin N) (e : Fin R) :
    Host.gather (colDims N D R wf) x idx (ix2 n e) = x (ix2 n (col hD idx e)) := by
  unfold Host.gather
  congr 1
  funext a
  refine Fin.ext ?_
  match a with
  | ⟨0, _⟩ => exact operand_row wf idx n e
  | ⟨1, _⟩ => exact operand_col wf idx n e

end Cert.LibGatherCol
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibPlainDot.lean ====
/-
  The plain matrix product's dimension numbers, once.

  A product of an `[a, k]` matrix with a `[k, b]` matrix contracts the left operand's axis 1 with the right operand's
  axis 0 and has no batch axis: the record `<[1], [0], [0], [1], [], []>`. For that record — whatever the extents —
  the contraction index has one coordinate of extent `k`, and at result index `(p, q)` and contraction coordinate `i`
  the operands are read at `(p, i)` and `(i, q)`. So both the matrix unit's product into a zero accumulator and the
  host's `dot_general` are the textbook sum at every entry. A printed record with these lists IS `plainDims`, by `rfl`.
  Library imports and the companion file on a product read at an entry.
-/
import Idealize.ShloMosaic.PureOps.Ideal.Laws
import Idealize.ShloMosaic.Lib.ValueIdx
import proofs.«154536_j11123965297141_2_alg».proof.Proof.LibDot

noncomputable section

namespace Cert.LibPlainDot

open Idealize.ShloMosaic Idealize.ShloMosaic.ValueIdx
open scoped BigOperators

/-- The plain product's record over operands `[a, k]`, `[k, b]` and result `[a, b]`. -/
abbrev plainDims (a k b : Nat)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

variable {a k b : Nat} (wf : DotDims.WF ⟨2, ![a, k]⟩ ⟨2, ![k, b]⟩ ⟨2, ![a, b]⟩ [1] [0] [0] [1] [] [])

theorem lhs0 (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

theorem lhs1 (j : (⟨2, ![a, b]⟩ : Shape).Idx) (q : (plainDims a k b wf).contr.Idx) :
    ((plainDims a k b wf).lhsIdx j q 1).val = (q ⟨0, Nat.one_pos⟩).val := by
  unfold DotDims.lhsIdx
  rw [dif_neg (show ¬(1 : Fin 2) ∈ (plainDims a k b wf).lhsBatch from List.not_mem_nil),
    dif_neg (show ¬(1 : Fin 2) ∈ (plainDims a k b wf).lhsNonContracting by
      show ¬(1 : Fin 2) ∈ [(0 : Fin 2)]; decide)]
  rfl

theorem rhs0 (j : (⟨2, ![a, b]⟩ : Shape).Idx) (q : (plainDims a k b wf).contr.Idx) :
    ((plainDims a k b wf).rhsIdx j q 0).val = (q ⟨0, Nat.one_pos⟩).val := by
  unfold DotDims.rhsIdx
  rw [dif_neg (show ¬(0 : Fin 2) ∈ (plainDims a k b wf).rhsBatch from List.not_mem_nil),
    dif_neg (show ¬(0 : Fin 2) ∈ (plainDims a k b wf).rhsNonContracting by
      show ¬(0 : Fin 2) ∈ [(1 : Fin 2)]; decide)]
  rfl

theorem rhs1 (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The matrix unit's product into a zero accumulator at entry `(p, q)`: the sum over `i` of `lhs (p, i) · rhs (i, q)`. -/
theorem matmul_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul (plainDims a k b wf) prec lhs rhs (constant ⟨2, ![a, b]⟩ .f32 0x00000000#32) (ix2 p q)
      = ∑ i : Fin k, lhs (ix2 p i) * rhs (ix2 i q) :=
  LibDot.matmul_zero_apply (plainDims a k b wf) rfl rfl (lhs0 wf) (lhs1 wf) (rhs0 wf) (rhs1 wf) prec lhs rhs p q

/-- The host's `dot_general` at entry `(p, q)`: the same sum. -/
theorem dotGeneral_apply {φ₁ φ₂ : FTy} (prec : Option ContractPrecision) (sched : HostSchedule)
    (lhs : FVec Ideal ⟨2, ![a, k]⟩ φ₁) (rhs : FVec Ideal ⟨2, ![k, b]⟩ φ₂) (p : Fin a) (q : Fin b) :
    FloatOps.dotGeneral (plainDims a k b wf) prec sched lhs rhs (ix2 p q)
      = ∑ i : Fin k, lhs (ix2 p i) * rhs (ix2 i q) :=
  LibDot.dotGeneral_apply (plainDims a k b wf) rfl rfl (lhs0 wf) (lhs1 wf) (rhs0 wf) (rhs1 wf) prec sched lhs rhs p q

end Cert.LibPlainDot

end
-- ==== Proof.LibBcastIn.lean ====
/-
  The host's broadcast_in_dim in the forms a row-wise layer meets, read at an entry.

  A scalar broadcast to any shape reads the scalar everywhere.  A vector [c] sent to [1, c] along axis 1 and then to
  [n, c] reads, at (p, q), its entry q: a bias row laid under every row.  A vector [n] sent to [n, 1] along axis 0
  reads, at (p, u), its entry p, and sent on to [n, c] reads, at (p, q), its entry p: one factor per row laid beside
  every column.  Library imports only.
-/
import Idealize.ShloMosaic.Lib.ValueIdx
import Idealize.ShloMosaic.Lib.Pipeline.Value

namespace Cert.LibBcastIn

open Idealize.ShloMosaic Idealize.ShloMosaic.ValueIdx

variable {α : Type}

/-- A scalar broadcast to a shape reads the scalar at every index. -/
theorem scalar_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- [c] → [1, c] along axis 1, at (u, q): entry q. -/
theorem row1_apply {c : ℕ} (dims : Fin (⟨1, ![c]⟩ : Shape).rank → Fin (⟨2, ![1, c]⟩ : Shape).rank) (hd : dims 0 = 1)
    (h : (⟨1, ![c]⟩ : Shape).BroadcastsInDim ⟨2, ![1, c]⟩ dims) (b : (⟨1, ![c]⟩ : Shape).Idx → α) (u : Fin 1) (q : Fin c) :
    broadcastInDim ⟨2, ![1, c]⟩ dims h b (ix2 u q) = b (ix1 q) :=
  broadcastInDim_apply dims h b (ix2 u q) (ix1 q) (fun a => by
    match a with
    | ⟨0, _⟩ =>
      show q.val = if c = 1 then 0 else ((ix2 u q) (dims 0)).val
      rw [hd]
      split
      · have := q.isLt; omega
      · rfl)

/-- [1, c] → [n, c] along axes 0 and 1, at (p, q): entry (0, q). -/
theorem rows_apply {n c : ℕ} (dims : Fin (⟨2, ![1, c]⟩ : Shape).rank → Fin (⟨2, ![n, c]⟩ : Shape).rank) (hd0 : dims 0 = 0) (hd1 : dims 1 = 1)
    (h : (⟨2, ![1, c]⟩ : Shape).BroadcastsInDim ⟨2, ![n, c]⟩ dims) (b : (⟨2, ![1, c]⟩ : Shape).Idx → α) (p : Fin n) (q : Fin c) :
    broadcastInDim ⟨2, ![n, c]⟩ dims h b (ix2 p q) = b (ix2 (0 : Fin 1) q) :=
  broadcastInDim_apply dims h b (ix2 p q) (ix2 (0 : Fin 1) q) (fun a => by
    match a with
    | ⟨0, _⟩ =>
      show (0 : ℕ) = if (1 : ℕ) = 1 then 0 else ((ix2 p q) (dims 0)).val
      rw [if_pos rfl]
    | ⟨1, _⟩ =>
      show q.val = if c = 1 then 0 else ((ix2 p q) (dims 1)).val
      rw [hd1]
      split
      · have := q.isLt; omega
      · rfl)

/-- A bias row laid under every row: [c] → [1, c] → [n, c], at (p, q): entry q. -/
theorem biasRow_apply {n c : ℕ} (d1 : Fin (⟨1, ![c]⟩ : Shape).rank → Fin (⟨2, ![1, c]⟩ : Shape).rank) (hd : d1 0 = 1)
    (h1 : (⟨1, ![c]⟩ : Shape).BroadcastsInDim ⟨2, ![1, c]⟩ d1)
    (d2 : Fin (⟨2, ![1, c]⟩ : Shape).rank → Fin (⟨2, ![n, c]⟩ : Shape).rank) (hd0 : d2 0 = 0) (hd1 : d2 1 = 1)
    (h2 : (⟨2, ![1, c]⟩ : Shape).BroadcastsInDim ⟨2, ![n, c]⟩ d2) (b : (⟨1, ![c]⟩ : Shape).Idx → α) (p : Fin n) (q : Fin c) :
    broadcastInDim ⟨2, ![n, c]⟩ d2 h2 (broadcastInDim ⟨2, ![1, c]⟩ d1 h1 b) (ix2 p q) = b (ix1 q) :=
  (rows_apply d2 hd0 hd1 h2 _ p q).trans (row1_apply d1 hd h1 b 0 q)

/-- [n] → [n, 1] along axis 0, at (p, u): entry p. -/
theorem col1_apply {n : ℕ} (dims : Fin (⟨1, ![n]⟩ : Shape).rank → Fin (⟨2, ![n, 1]⟩ : Shape).rank) (hd : dims 0 = 0)
    (h : (⟨1, ![n]⟩ : Shape).BroadcastsInDim ⟨2, ![n, 1]⟩ dims) (v : (⟨1, ![n]⟩ : Shape).Idx → α) (p : Fin n) (u : Fin 1) :
    broadcastInDim ⟨2, ![n, 1]⟩ dims h v (ix2 p u) = v (ix1 p) :=
  broadcastInDim_apply dims h v (ix2 p u) (ix1 p) (fun a => by
    match a with
    | ⟨0, _⟩ =>
      show p.val = if n = 1 then 0 else ((ix2 p u) (dims 0)).val
      rw [hd]
      split
      · have := p.isLt; omega
      · rfl)

/-- [n, 1] → [n, c] along axes 0 and 1, at (p, q): entry (p, 0). -/
theorem cols_apply {n c : ℕ} (dims : Fin (⟨2, ![n, 1]⟩ : Shape).rank → Fin (⟨2, ![n, c]⟩ : Shape).rank) (hd0 : dims 0 = 0) (hd1 : dims 1 = 1)
    (h : (⟨2, ![n, 1]⟩ : Shape).BroadcastsInDim ⟨2, ![n, c]⟩ dims) (v : (⟨2, ![n, 1]⟩ : Shape).Idx → α) (p : Fin n) (q : Fin c) :
    broadcastInDim ⟨2, ![n, c]⟩ dims h v (ix2 p q) = v (ix2 p (0 : Fin 1)) :=
  broadcastInDim_apply dims h v (ix2 p q) (ix2 p (0 : Fin 1)) (fun a => by
    match a with
    | ⟨0, _⟩ =>
      show p.val = if n = 1 then 0 else ((ix2 p q) (dims 0)).val
      rw [hd0]
      split
      · have := p.isLt; omega
      · rfl
    | ⟨1, _⟩ =>
      show (0 : ℕ) = if (1 : ℕ) = 1 then 0 else ((ix2 p q) (dims 1)).val
      rw [if_pos rfl])

end Cert.LibBcastIn
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.Preamble.lean ====
/-
  The six arrays the kernel's windows read, as the launch finds them after the host lines before it, at one entry.

  With x, the codebook centroids and indices, the permutation, the per-row scale s and offset b, the low-rank factors U, S,
  Vt and the bias as launched:
    window 0 reads x itself (a change of float format is the identity here);
    window 1 reads Q(o, c) = W(o, p c): the dequantized codebook W with its columns looked up through the permutation,
      negative entries counted from the end and the result clamped into the column range;
    windows 2 and 3 read s and the bias as rows: (0, o) ↦ s(o, 0) and (0, o) ↦ bias(o);
    window 4 reads the 65 columns T(t, r) = (∑ c, x(t, c) · Vt(r, c)) · S(r) for r < 64 and T(t, 64) = 0 + ∑ c, x(t, c);
    window 5 reads the 65 columns U(o, r) for r < 64 and b(o, 0) at r = 64.
-/
import proofs.«154536_j11123965297141_2_alg».proof.Proof.Gen.KernelIdeal.Frame
import proofs.«154536_j11123965297141_2_alg».proof.Proof.LibGatherCol
import proofs.«154536_j11123965297141_2_alg».proof.Proof.LibConcatPair
import proofs.«154536_j11123965297141_2_alg».proof.Proof.LibPlainDot
import proofs.«154536_j11123965297141_2_alg».proof.Proof.LibBcastIn
import proofs.«154536_j11123965297141_2_alg».proof.Proof.LibRowReduce
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384
set_option maxHeartbeats 1000000

noncomputable section

namespace Cert.KernelPreamble

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline
open scoped BigOperators

/-- The permutation's entries, a negative one counted from the end, as a column of start indices. -/
def permCol (a3 : (⟨S4096, .i32⟩ : BufTy).Contents (Elt Ideal)) : (⟨S4096x1, .i32⟩ : BufTy).Contents (Elt Ideal) :=
  broadcastInDim S4096x1 ![0] bcast_S4096_S4096x1_0
    (select (cmpi .slt a3 (broadcastInDim S4096 ![] bcast_S_S4096 (constantI S_ 32 0#32)))
      (addi a3 (broadcastInDim S4096 ![] bcast_S_S4096 (constantI S_ 32 4096#32))) a3)

/-- The dequantized codebook: each index of a row replaced by its centroid's eight entries, the row laid flat. -/
def codebook (a1 : (⟨S8192x8, .f32⟩ : BufTy).Contents (Elt Ideal)) (a2 : (⟨S4096x512, .i32⟩ : BufTy).Contents (Elt Ideal)) :
    (⟨S4096x4096, .bf16⟩ : BufTy).Contents (Elt Ideal) :=
  shapeCast S4096x4096 (Host.gather gather_S8192x8_S4096x512x1_S4096x512x8_2_0_n_n_0_2_18 (truncf (F := Ideal) .bf16 a1 bitsLt_bf16_f32)
    (broadcastInDim S4096x512x1 ![0, 1] bcast_S4096x512_S4096x512x1_0_1
      (select (cmpi .slt a2 (broadcastInDim S4096x512 ![] bcast_S_S4096x512 (constantI S_ 32 0#32)))
        (addi a2 (broadcastInDim S4096x512 ![] bcast_S_S4096x512 (constantI S_ 32 8192#32))) a2)))
    shapeCasts_S4096x512x8_S4096x4096

/-- The column the permutation's entry c names. -/
def pcol (a3 : (⟨S4096, .i32⟩ : BufTy).Contents (Elt Ideal)) (c : Fin 4096) : Fin 4096 :=
  Cert.LibGatherCol.col (by decide : 0 < 4096) (permCol a3) c

variable (m : (ℓ : Loc nD τ sig) → Buf (Elt Ideal) ℓ) (c : Dev nD)

/-- The ten arrays as launched. -/
abbrev arg0 : (⟨S4096x4096, .f32⟩ : BufTy).Contents (Elt Ideal) := m ((c : Thread nD τ).loc main_arg0)
abbrev arg1 : (⟨S8192x8, .f32⟩ : BufTy).Contents (Elt Ideal) := m ((c : Thread nD τ).loc main_arg1)
abbrev arg2 : (⟨S4096x512, .i32⟩ : BufTy).Contents (Elt Ideal) := m ((c : Thread nD τ).loc main_arg2)
abbrev arg3 : (⟨S4096, .i32⟩ : BufTy).Contents (Elt Ideal) := m ((c : Thread nD τ).loc main_arg3)
abbrev arg4 : (⟨S4096x1, .f32⟩ : BufTy).Contents (Elt Ideal) := m ((c : Thread nD τ).loc main_arg4)
abbrev arg5 : (⟨S4096x1, .f32⟩ : BufTy).Contents (Elt Ideal) := m ((c : Thread nD τ).loc main_arg5)
abbrev arg6 : (⟨S4096x64, .f32⟩ : BufTy).Contents (Elt Ideal) := m ((c : Thread nD τ).loc main_arg6)
abbrev arg7 : (⟨S64, .f32⟩ : BufTy).Contents (Elt Ideal) := m ((c : Thread nD τ).loc main_arg7)
abbrev arg8 : (⟨S64x4096, .f32⟩ : BufTy).Contents (Elt Ideal) := m ((c : Thread nD τ).loc main_arg8)
abbrev arg9 : (⟨S4096, .f32⟩ : BufTy).Contents (Elt Ideal) := m ((c : Thread nD τ).loc main_arg9)

/-- Window 0's array is x. -/
theorem x_apply (t k : Fin 4096) :
    (V m c main_v16 : S4096x4096.Idx → EReal) (ix2 t k) = arg0 m c (ix2 t k) := by
  have e : (V m c main_v16 : S4096x4096.Idx → EReal)
      = (truncf (F := Ideal) .bf16 (arg0 m c) bitsLt_bf16_f32 : (⟨S4096x4096, .bf16⟩ : BufTy).Contents (Elt Ideal)) := by
    dsimp only [Gen.V, Gen.hostOps0]; after_results; try rfl
  rw [e]; rfl

/-- Window 1's array is the codebook with its columns looked up through the permutation. -/
theorem q_apply (o k : Fin 4096) :
    (V m c main_v15 : S4096x4096.Idx → EReal) (ix2 o k)
      = codebook (arg1 m c) (arg2 m c)
          (ix2 o (pcol (arg3 m c) k)) := by
  have e : (V m c main_v15 : S4096x4096.Idx → EReal)
      = Host.gather gather_S4096x4096_S4096x1_S4096x4096_0_1_n_n_1_1_40961
          (codebook (arg1 m c) (arg2 m c))
          (permCol (arg3 m c)) := by
    dsimp only [Gen.V, Gen.hostOps0]; after_results_simp; try rfl
  rw [e]
  show Host.gather (Cert.LibGatherCol.colDims 4096 4096 4096 _) _ _ (ix2 o k) = _
  exact Cert.LibGatherCol.gather_col_apply (by decide) _ _ _ o k

/-- Window 2's array is the scale column laid as a row. -/
theorem scale_apply (o : Fin 4096) :
    (V m c main_v26 : S1x4096.Idx → EReal) (ix2 (0 : Fin 1) o)
      = arg4 m c (ix2 o (0 : Fin 1)) := by
  have e : (V m c main_v26 : S1x4096.Idx → EReal)
      = shapeCast S1x4096 (arg4 m c) shapeCasts_S4096x1_S1x4096 := by
    dsimp only [Gen.V, Gen.hostOps0]; after_results; try rfl
  rw [e]
  refine shapeCast_apply (s := S4096x1) (t := S1x4096) _ _ (ix2 (0 : Fin 1) o) (ix2 o (0 : Fin 1)) ?_
  rw [Shape.rowMajor_val_two, Shape.rowMajor_val_two]
  show o.val * 1 + 0 = 0 * 4096 + o.val
  omega

/-- Window 3's array is the bias laid as a row. -/
theorem bias_apply (o : Fin 4096) :
    (V m c main_v27 : S1x4096.Idx → EReal) (ix2 (0 : Fin 1) o) = arg9 m c (ix1 o) := by
  have e : (V m c main_v27 : S1x4096.Idx → EReal)
      = shapeCast S1x4096 (arg9 m c) shapeCasts_S4096_S1x4096 := by
    dsimp only [Gen.V, Gen.hostOps0]; after_results; try rfl
  rw [e]
  exact shapeCast_a_1a_apply _ _ 0 o

/-- Window 5's array: U beside the offset column. -/
theorem uaug_eq :
    (V m c main_v25 : S4096x65.Idx → EReal)
      = concatenate S4096x65 1 [⟨S4096x64, arg6 m c⟩, ⟨S4096x1, arg5 m c⟩]
          concatenates_S4096x64_S4096x1_S4096x65_d1 := by
  dsimp only [Gen.V, Gen.hostOps0]; after_results; try rfl

theorem uaug_left (o : Fin 4096) (r : Fin 64) (q : Fin 65) (hq : q.val = r.val) :
    (V m c main_v25 : S4096x65.Idx → EReal) (ix2 o q) = arg6 m c (ix2 o r) := by
  rw [uaug_eq]
  exact Cert.LibConcatPair.cols_left _ _ _ o r q hq

theorem uaug_last (o : Fin 4096) (q : Fin 65) (hq : q.val = 64) :
    (V m c main_v25 : S4096x65.Idx → EReal) (ix2 o q) = arg5 m c (ix2 o (0 : Fin 1)) := by
  rw [uaug_eq]
  exact Cert.LibConcatPair.cols_right _ _ _ o (0 : Fin 1) q (by show q.val = 64 + 0; omega)

/-- The low-rank projection of x, scaled: (x · Vtᵀ)(t, r) · S(r). -/
def proj (a0 : FVec Ideal S4096x4096 .f32) (a7 : FVec Ideal S64 .f32) (a8 : FVec Ideal S64x4096 .f32) :
    FVec Ideal S4096x64 .f32 :=
  mulf (F := Ideal) (Host.dotGeneral (F := Ideal) dot_S4096x4096_S4096x64_S4096x64_1_0_0_1_n_n none a0 (transpose S4096x64 [1, 0] a8 transposes_S64x4096_S4096x64_1_0))
    (broadcastInDim S4096x64 ![0, 1] bcast_S1x64_S4096x64_0_1 (broadcastInDim S1x64 ![1] bcast_S64_S1x64_1 a7))

/-- The row sums of x, as a column. -/
def rowSum (a0 : FVec Ideal S4096x4096 .f32) : FVec Ideal S4096x1 .f32 :=
  broadcastInDim S4096x1 ![0] bcast_S4096_S4096x1_0
    (Host.reduceAdd (F := Ideal) a0 (constant (F := Ideal) S_ .f32 0x00000000#32) reducesTo_S4096x4096_S4096_d1 h_S_)

theorem proj_apply (a0 : FVec Ideal S4096x4096 .f32) (a7 : FVec Ideal S64 .f32) (a8 : FVec Ideal S64x4096 .f32)
    (t : Fin 4096) (r : Fin 64) :
    proj a0 a7 a8 (ix2 t r) = (∑ k : Fin 4096, a0 (ix2 t k) * a8 (ix2 r k)) * a7 (ix1 r) := by
  unfold proj
  rw [mulf_apply, Cert.LibBcastIn.biasRow_apply _ rfl _ _ rfl rfl]
  congr 1
  show FloatOps.dotGeneral (Cert.LibPlainDot.plainDims 4096 4096 64 _) _ _ _ _ (ix2 t r) = _
  rw [Cert.LibPlainDot.dotGeneral_apply]
  exact Finset.sum_congr rfl fun k _ => congrArg (a0 (ix2 t k) * ·) (transpose_ix2_apply a8 _ k r)

theorem rowSum_apply (a0 : FVec Ideal S4096x4096 .f32) (t : Fin 4096) :
    rowSum a0 (ix2 t (0 : Fin 1)) = Ideal.ofBits .f32 0x00000000#32 + ∑ k : Fin 4096, a0 (ix2 t k) := by
  unfold rowSum
  rw [Cert.LibBcastIn.col1_apply _ rfl]
  show Ideal.hostReduceAdd reducesTo_S4096x4096_S4096_d1 a0 _ (ix1 t) = _
  refine (Ideal.hostReduceAdd_single reducesTo_S4096x4096_S4096_d1 (by decide) a0 _ (ix1 t)).trans ?_
  exact congrArg (_ + ·) (Finset.sum_congr rfl fun k _ => congrArg a0 (Cert.LibRowReduce.lift_row _ t k))

/-- Window 4's array: the scaled projection beside the row sums. -/
theorem taug_eq :
    (V m c main_v24 : S4096x65.Idx → EReal)
      = concatenate S4096x65 1
          [⟨S4096x64, proj (arg0 m c) (arg7 m c) (arg8 m c)⟩,
            ⟨S4096x1, rowSum (arg0 m c)⟩]
          concatenates_S4096x64_S4096x1_S4096x65_d1 := by
  dsimp only [Gen.V, Gen.hostOps0]; after_results_simp
  refine congrArg₂ (fun a b => concatenate S4096x65 1 [⟨S4096x64, a⟩, ⟨S4096x1, b⟩]
    concatenates_S4096x64_S4096x1_S4096x65_d1) ?_ ?_
  · after_results_simp; try rfl
  · after_results_simp; try rfl

theorem taug_left (t : Fin 4096) (r : Fin 64) (q : Fin 65) (hq : q.val = r.val) :
    (V m c main_v24 : S4096x65.Idx → EReal) (ix2 t q)
      = (∑ k : Fin 4096, arg0 m c (ix2 t k) * arg8 m c (ix2 r k))
          * arg7 m c (ix1 r) := by
  rw [taug_eq]
  exact (Cert.LibConcatPair.cols_left _ _ _ t r q hq).trans (proj_apply _ _ _ t r)

theorem taug_last (t : Fin 4096) (q : Fin 65) (hq : q.val = 64) :
    (V m c main_v24 : S4096x65.Idx → EReal) (ix2 t q)
      = Ideal.ofBits .f32 0x00000000#32 + ∑ k : Fin 4096, arg0 m c (ix2 t k) := by
  rw [taug_eq]
  exact (Cert.LibConcatPair.cols_right _ _ _ t (0 : Fin 1) q (by show q.val = 64 + 0; omega)).trans (rowSum_apply _ t)

end Cert.KernelPreamble

end
-- ==== Proof.RefValue.lean ====
/-
  The reference program's result read at one index, as a formula over the extended reals.

  With `W` the dequantized codebook (kept closed here), `s` and `b` the per-row scale and offset columns, `p` the
  column that the (fixed-up) permutation entry names, `U`, `S`, `Vt` the low-rank factors, the reference computes
  the weight matrix `M[o, c] = (W[o, p c] * s[o] + b[o]) + ∑ r, (U[o, r] * S[r]) * Vt[r, c]`, and its result is
  `out[t, o] = (∑ c, x[t, c] * M[o, c]) + bias[o]`.

  The column lookup reads the affine table `W * s + b` at the column `p c`: which column is read depends on the
  permutation only. The transpose and the contraction that follows it meet at `M[o, c]`: the contraction's right
  operand at `(c, o)` is the transposed matrix there. Every step is a rewrite at an index; no sum is rearranged and
  no product is distributed over a sum.
-/
import proofs.«154536_j11123965297141_2_alg».proof.Proof.Gen.ReferenceIdeal.Read
import proofs.«154536_j11123965297141_2_alg».proof.Proof.LibGatherCol
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen
open scoped BigOperators

/-- the column the (fixed-up) permutation entry c names -/
def pc (x3 : (⟨S4096, .i32⟩ : BufTy).Contents (Elt Ideal)) (c : Fin 4096) : Fin 4096 :=
  Cert.LibGatherCol.col (by decide : 0 < 4096) (Cert.ReferenceIdeal.Read.val_main_v17 (F := Ideal) x3) c

/-- The low-rank term at `(o, c)`: `∑ r, (U[o, r] * S[r]) * Vt[r, c]`. The scale vector is broadcast along rows
    before the product, so its element at `(o, r)` is `S[r]`. -/
theorem lowrank_apply (x6 : (⟨S4096x64, .f32⟩ : BufTy).Contents (Elt Ideal)) (x7 : (⟨S64, .f32⟩ : BufTy).Contents (Elt Ideal))
    (x8 : (⟨S64x4096, .f32⟩ : BufTy).Contents (Elt Ideal)) (o c : Fin 4096) :
    Cert.ReferenceIdeal.Read.val_main_v22 (F := Ideal) x6 x7 x8 (ix2 o c)
      = ∑ r : Fin 64, (x6 (ix2 o r) * x7 (ix1 r)) * x8 (ix2 r c) := by
  rw [Read.val_main_v22_apply]
  refine Finset.sum_congr rfl fun r _ => ?_
  have el : Read.lidx_main_v22 (ix2 o c) r = ix2 o r :=
    funext fun a => Fin.ext (by match a with | ⟨0, _⟩ => rfl | ⟨1, _⟩ => rfl)
  have er : Read.ridx_main_v22 (ix2 o c) r = ix2 r c :=
    funext fun a => Fin.ext (by match a with | ⟨0, _⟩ => rfl | ⟨1, _⟩ => rfl)
  have e7 : Read.idx_main_v19 (Read.idx_main_v20 (ix2 o r)) = ix1 r :=
    funext fun a => Fin.ext (by match a with | ⟨0, _⟩ => rfl)
  rw [el, er, Read.val_main_v21_apply, Read.val_main_v20_apply, Read.val_main_v19_apply, e7, Ideal.mulf_def]

/-- The affine table at `(o, j)`: `W[o, j] * s[o] + b[o]`. Both columns are broadcast along rows. -/
theorem affine_apply (x1 : (⟨S8192x8, .f32⟩ : BufTy).Contents (Elt Ideal)) (x2 : (⟨S4096x512, .i32⟩ : BufTy).Contents (Elt Ideal))
    (x4 x5 : (⟨S4096x1, .f32⟩ : BufTy).Contents (Elt Ideal)) (o j : Fin 4096) :
    Cert.ReferenceIdeal.Read.val_main_v11 (F := Ideal) x1 x2 x4 x5 (ix2 o j)
      = Cert.ReferenceIdeal.Read.val_main_v7 (F := Ideal) x1 x2 (ix2 o j) * x4 (ix2 o (0 : Fin 1))
          + x5 (ix2 o (0 : Fin 1)) := by
  have e8 : Read.idx_main_v8 (ix2 o j) = ix2 o (0 : Fin 1) :=
    funext fun a => Fin.ext (by match a with | ⟨0, _⟩ => rfl | ⟨1, _⟩ => rfl)
  have e10 : Read.idx_main_v10 (ix2 o j) = ix2 o (0 : Fin 1) :=
    funext fun a => Fin.ext (by match a with | ⟨0, _⟩ => rfl | ⟨1, _⟩ => rfl)
  rw [Read.val_main_v11_apply, Read.val_main_v9_apply, Read.val_main_v8_apply, Read.val_main_v10_apply, e8, e10,
    Ideal.addf_def, Ideal.mulf_def]

/-- The column lookup at `(o, c)`: row `o` of the affine table, at the column the permutation entry `c` names. -/
theorem lookup_apply (x1 : (⟨S8192x8, .f32⟩ : BufTy).Contents (Elt Ideal)) (x2 : (⟨S4096x512, .i32⟩ : BufTy).Contents (Elt Ideal))
    (x3 : (⟨S4096, .i32⟩ : BufTy).Contents (Elt Ideal)) (x4 x5 : (⟨S4096x1, .f32⟩ : BufTy).Contents (Elt Ideal)) (o c : Fin 4096) :
    Cert.ReferenceIdeal.Read.val_main_v18 (F := Ideal) x1 x2 x3 x4 x5 (ix2 o c)
      = Cert.ReferenceIdeal.Read.val_main_v11 (F := Ideal) x1 x2 x4 x5 (ix2 o (pc x3 c)) := by
  show Host.gather (Cert.LibGatherCol.colDims 4096 4096 4096 _) _ _ (ix2 o c) = _
  exact Cert.LibGatherCol.gather_col_apply (by decide) _ _ _ o c

/-- The weight matrix at `(o, c)`: the looked-up affine entry plus the low-rank term. -/
theorem weight_apply (x1 : (⟨S8192x8, .f32⟩ : BufTy).Contents (Elt Ideal)) (x2 : (⟨S4096x512, .i32⟩ : BufTy).Contents (Elt Ideal))
    (x3 : (⟨S4096, .i32⟩ : BufTy).Contents (Elt Ideal)) (x4 x5 : (⟨S4096x1, .f32⟩ : BufTy).Contents (Elt Ideal)) (x6 : (⟨S4096x64, .f32⟩ : BufTy).Contents (Elt Ideal))
    (x7 : (⟨S64, .f32⟩ : BufTy).Contents (Elt Ideal)) (x8 : (⟨S64x4096, .f32⟩ : BufTy).Contents (Elt Ideal)) (o c : Fin 4096) :
    Cert.ReferenceIdeal.Read.val_main_v23 (F := Ideal) x1 x2 x3 x4 x5 x6 x7 x8 (ix2 o c)
      = (Cert.ReferenceIdeal.Read.val_main_v7 (F := Ideal) x1 x2 (ix2 o (pc x3 c)) * x4 (ix2 o (0 : Fin 1))
            + x5 (ix2 o (0 : Fin 1)))
          + ∑ r : Fin 64, (x6 (ix2 o r) * x7 (ix1 r)) * x8 (ix2 r c) := by
  rw [Read.val_main_v23_apply, Ideal.addf_def, lookup_apply, affine_apply, lowrank_apply]

/-- The reference's result at `(t, o)`. -/
theorem ref_apply (x0 : (⟨S4096x4096, .f32⟩ : BufTy).Contents (Elt Ideal)) (x1 : (⟨S8192x8, .f32⟩ : BufTy).Contents (Elt Ideal))
    (x2 : (⟨S4096x512, .i32⟩ : BufTy).Contents (Elt Ideal)) (x3 : (⟨S4096, .i32⟩ : BufTy).Contents (Elt Ideal)) (x4 x5 : (⟨S4096x1, .f32⟩ : BufTy).Contents (Elt Ideal))
    (x6 : (⟨S4096x64, .f32⟩ : BufTy).Contents (Elt Ideal)) (x7 : (⟨S64, .f32⟩ : BufTy).Contents (Elt Ideal)) (x8 : (⟨S64x4096, .f32⟩ : BufTy).Contents (Elt Ideal))
    (x9 : (⟨S4096, .f32⟩ : BufTy).Contents (Elt Ideal)) (t o : Fin 4096) :
    Cert.ReferenceIdeal.Read.val_main_v28 (F := Ideal) x0 x1 x2 x3 x4 x5 x6 x7 x8 x9 (ix2 t o)
      = (∑ c : Fin 4096, x0 (ix2 t c) *
            ((Cert.ReferenceIdeal.Read.val_main_v7 (F := Ideal) x1 x2 (ix2 o (pc x3 c)) * x4 (ix2 o (0 : Fin 1))
                + x5 (ix2 o (0 : Fin 1)))
              + ∑ r : Fin 64, (x6 (ix2 o r) * x7 (ix1 r)) * x8 (ix2 r c)))
        + x9 (ix1 o) := by
  have e9 : Read.idx_main_v26 (Read.idx_main_v27 (ix2 t o)) = ix1 o :=
    funext fun a => Fin.ext (by match a with | ⟨0, _⟩ => rfl)
  rw [Read.val_main_v28_apply, Read.val_main_v25_apply, Read.val_main_v27_apply, Read.val_main_v26_apply, e9,
    Ideal.addf_def]
  congr 1
  refine Finset.sum_congr rfl fun c _ => ?_
  have el : Read.lidx_main_v25 (ix2 t o) c = ix2 t c :=
    funext fun a => Fin.ext (by match a with | ⟨0, _⟩ => rfl | ⟨1, _⟩ => rfl)
  have er : Read.idx_main_v24 (Read.ridx_main_v25 (ix2 t o) c) = ix2 o c :=
    funext fun a => Fin.ext (by match a with | ⟨0, _⟩ => rfl | ⟨1, _⟩ => rfl)
  rw [el, Read.val_main_v24_apply, er, weight_apply]

end Cert.RefValue

end
-- ==== Proof.RealLaw.lean ====
/-
  The law that joins the two arrangements of the quantized linear layer, for one output entry.

  Fix a token's row x over the columns c, an output row's looked-up codebook entries q c, its scale ws and offset wb,
  its low-rank row u over the rank r with the singular values sv and the factor's rows vt r, and its bias. The reference
  forms the weight row first, w c = (q c · ws + wb) + ∑ r, (u r · sv r) · vt r c, and then ∑ c, x c · w c + bias. The
  kernel never forms w: it scales the plain product ∑ c, x c · q c by ws, and adds one small product over the rank and one
  extra column, ∑ r, ((∑ c, x c · vt r c) · sv r) · u r + (∑ c, x c) · wb. The two agree by distributing x c over the
  weight row's three terms and exchanging the two sums of the low-rank term — over the real numbers. On the extended
  reals distributivity fails at the infinities, so the law is stated for entries that are coerced real numbers.
-/
import Mathlib.Algebra.BigOperators.Ring.Finset
import Mathlib.Algebra.BigOperators.Fin
import Mathlib.Data.Real.Basic
import Mathlib.Data.EReal.Basic
import Mathlib.Data.EReal.Operations
import Mathlib.Tactic

namespace QLinear

open scoped BigOperators

/-- The coercion of a finite sum of real numbers is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {C R : Type*} [Fintype C] [Fintype R]

/-- The law over the real numbers. The zeros are the accumulator's starting value and the row sum's initial value. -/
theorem law (x q : C → ℝ) (vt : R → C → ℝ) (u sv : R → ℝ) (ws wb bias : ℝ) :
    ((ws * (0 + ∑ c, x c * q c)) + bias) + (∑ r, ((∑ c, x c * vt r c) * sv r) * u r + (0 + ∑ c, x c) * wb)
      = (∑ c, x c * ((q c * ws + wb) + ∑ r, (u r * sv r) * vt r c)) + bias := by
  have e3 : ∑ r, ((∑ c, x c * vt r c) * sv r) * u r = ∑ c, ∑ r, x c * ((u r * sv r) * vt r c) := by
    rw [Finset.sum_comm]
    refine Finset.sum_congr rfl fun r _ => ?_
    rw [Finset.sum_mul, Finset.sum_mul]
    exact Finset.sum_congr rfl fun c _ => by ring
  have e1 : ws * ∑ c, x c * q c = ∑ c, x c * (q c * ws) := by
    rw [Finset.mul_sum]; exact Finset.sum_congr rfl fun c _ => by ring
  have e2 : (∑ c, x c) * wb = ∑ c, x c * wb := Finset.sum_mul _ _ _
  have e4 : ∀ c, x c * ((q c * ws + wb) + ∑ r, (u r * sv r) * vt r c)
      = x c * (q c * ws) + x c * wb + ∑ r, x c * ((u r * sv r) * vt r c) := fun c => by
    rw [mul_add, mul_add, Finset.mul_sum]
  rw [zero_add, zero_add, e1, e2, e3]
  simp only [e4, Finset.sum_add_distrib]
  ring

/-- The same law on the extended reals, every entry a coerced real number. -/
theorem law_ereal (x q : C → ℝ) (vt : R → C → ℝ) (u sv : R → ℝ) (ws wb bias : ℝ) :
    (((ws : EReal) * ((0 : EReal) + ∑ c, (x c : EReal) * (q c : EReal))) + (bias : EReal))
        + (∑ r, ((∑ c, (x c : EReal) * (vt r c : EReal)) * (sv r : EReal)) * (u r : EReal)
            + ((0 : EReal) + ∑ c, (x c : EReal)) * (wb : EReal))
      = (∑ c, (x c : EReal) * (((q c : EReal) * (ws : EReal) + (wb : EReal))
            + ∑ r, ((u r : EReal) * (sv r : EReal)) * (vt r c : EReal))) + (bias : EReal) := by
  rw [← EReal.coe_zero]
  simp only [← EReal.coe_mul, ← EReal.coe_add, ← coe_sum]
  exact congrArg _ (law x q vt u sv ws wb bias)

end QLinear
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.Finite.lean ====
/-
  From the precondition "every float input is finite" to "every entry of each float input is a real number".

  The precondition is a conjunction, over the eight float inputs, of the test "for all indices i, |x i| < +inf",
  where |x| is max x (-x) on the extended reals and each "for all" is a reduction by "and" from 1 into the one-index
  shape. A conjunction of one-bit words that is 1 has every conjunct 1; a reduction by "and" into one index that is 1
  had a 1 at every operand index; and an extended real whose absolute value is below the top element is a real number.
  "Is a real number" is stated as ∃ a : ℝ, x = ↑a.
-/
import proofs.«154536_j11123965297141_2_alg».proof.Pre_finite_inputs
import proofs.«154536_j11123965297141_2_alg».proof.Proof.LibFiniteMax
import Idealize.ShloMosaic.Lib.ReduceAll

noncomputable section

namespace Cert.Finite

open Idealize.ShloMosaic
open Cert.Pre_finite_inputs

/-- The rank-0 shape has exactly one index. -/
instance subsingleton_S_ : Subsingleton S_.Idx := ⟨fun a b => funext fun d => d.elim0⟩

/-- One input's test, for any shape: if the reduction by "and", over all axes, of the entrywise comparison
    |x i| < +inf is 1, then every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1)
    (i : s.Idx) : ∃ a : ℝ, x i = (a : EReal) := by
  have h1 := Host.reduce_andi_all _ init hr hu j e i
  exact Cert.LibFiniteMax.real_of_lt_inf h1

/-- The precondition "every float input is finite", read back: every entry of each of the eight float inputs is a
    real number. The two integer inputs are not tested and nothing is said of them. -/
theorem reals_of_pre [Cert.Pre_finite_inputs.Facts]
    (x0 : FVec Ideal Cert.Pre_finite_inputs.S4096x4096 .f32) (x1 : FVec Ideal Cert.Pre_finite_inputs.S8192x8 .f32)
    (x2 : IVec Cert.Pre_finite_inputs.S4096x512 32) (x3 : IVec Cert.Pre_finite_inputs.S4096 32)
    (x4 x5 : FVec Ideal Cert.Pre_finite_inputs.S4096x1 .f32) (x6 : FVec Ideal Cert.Pre_finite_inputs.S4096x64 .f32)
    (x7 : FVec Ideal Cert.Pre_finite_inputs.S64 .f32) (x8 : FVec Ideal Cert.Pre_finite_inputs.S64x4096 .f32)
    (x9 : FVec Ideal Cert.Pre_finite_inputs.S4096 .f32)
    (h : Cert.Pre_finite_inputs.fn (F := Ideal) x0 x1 x2 x3 x4 x5 x6 x7 x8 x9 = fun _ => 1#1) :
    (∀ i, ∃ a : ℝ, x0 i = (a : EReal)) ∧ (∀ i, ∃ a : ℝ, x1 i = (a : EReal)) ∧ (∀ i, ∃ a : ℝ, x4 i = (a : EReal))
      ∧ (∀ i, ∃ a : ℝ, x5 i = (a : EReal)) ∧ (∀ i, ∃ a : ℝ, x6 i = (a : EReal)) ∧ (∀ i, ∃ a : ℝ, x7 i = (a : EReal))
      ∧ (∀ i, ∃ a : ℝ, x8 i = (a : EReal)) ∧ (∀ i, ∃ a : ℝ, x9 i = (a : EReal)) := by
  -- the one entry of the result, as a nested conjunction of the eight reductions
  have h0 := congrFun h (fun a => a.elim0 : S_.Idx)
  simp only [fn, fn_part1, fn_part2, andi, IntOp.andi_eq_one] at h0
  obtain ⟨⟨⟨⟨⟨⟨⟨e0, e1⟩, e4⟩, e5⟩, e6⟩, e7⟩, e8⟩, e9⟩ := h0
  exact ⟨real_of_all x0 _ _ _ _ _ e0, real_of_all x1 _ _ _ _ _ e1, real_of_all x4 _ _ _ _ _ e4,
    real_of_all x5 _ _ _ _ _ e5, real_of_all x6 _ _ _ _ _ e6, real_of_all x7 _ _ _ _ _ e7,
    real_of_all x8 _ _ _ _ _ e8, real_of_all x9 _ _ _ _ _ e9⟩

end Cert.Finite

end
-- ==== Proof.LibFoldBlocks.lean ====
/-
  Folds and sums over `Fin N` cut into `a` consecutive blocks of `b` entries (`a * b = N`), and the running
  accumulation over the blocks.

  A commutative, associative operation with a neutral element makes its carrier a commutative monoid whose
  finite products are the `Finset.fold`s of the operation (`foldMonoid`, `fold_eq_prod`); the statements about
  folds below are the corresponding statements about finite products in that monoid. Entry `r` of block `j`
  is the entry `j * b + r` of the whole.
-/
import Mathlib.Algebra.BigOperators.Fin
import Mathlib.Algebra.BigOperators.Group.Finset.Basic
import Mathlib.Data.Finset.Fold
import Mathlib.Data.EReal.Basic

open scoped BigOperators

namespace Cert.FoldBlocks

/-- Entry `r` of block `j`, of `a` blocks of `b` entries, lies below `a * b`. -/
theorem block_lt {a b N : ℕ} (h : a * b = N) (j : Fin a) (r : Fin b) : j.val * b + r.val < N := by
  have h1 : j.val * b + r.val < (j.val + 1) * b := by rw [Nat.succ_mul]; exact Nat.add_lt_add_left r.isLt _
  exact h ▸ Nat.lt_of_lt_of_le h1 (Nat.mul_le_mul_right b j.isLt)

/-- Entry `r` of block `j` as an index of the whole. -/
def blockIdx {a b N : ℕ} (h : a * b = N) (j : Fin a) (r : Fin b) : Fin N := ⟨j.val * b + r.val, block_lt h j r⟩

@[simp] theorem blockIdx_val {a b N : ℕ} (h : a * b = N) (j : Fin a) (r : Fin b) :
    (blockIdx h j r).val = j.val * b + r.val := rfl

/-! ## Products and sums in a commutative monoid -/

section Monoid
variable {M : Type*} [CommMonoid M]

/-- A product over `Fin N`, `N = a * b`, is the product over the `a` blocks of each block's product. -/
theorem prod_blocks {a b N : ℕ} (h : a * b = N) (g : Fin N → M) :
    ∏ n : Fin N, g n = ∏ j : Fin a, ∏ r : Fin b, g (blockIdx h j r) := by
  subst h
  rw [← Equiv.prod_comp finProdFinEquiv g, Fintype.prod_prod_type]
  refine Finset.prod_congr rfl fun j _ => Finset.prod_congr rfl fun r _ => congrArg g (Fin.ext ?_)
  show r.val + b * j.val = j.val * b + r.val
  rw [Nat.mul_comm, Nat.add_comm]

/-- A product over `Fin N` of a function of the position is the product over `Finset.range N`. -/
theorem prod_fin_eq_range (N : ℕ) (f : ℕ → M) : ∏ n : Fin N, f n.val = ∏ n ∈ Finset.range N, f n :=
  Fin.prod_univ_eq_prod_range f N

/-- The accumulator BEFORE block `k`, started at `1` and multiplied by each block in turn, is the product of
    the blocks before `k`. -/
theorem acc_eq_prod_range (blk acc : ℕ → M) (h0 : acc 0 = 1) (hs : ∀ k, acc (k + 1) = acc k * blk k) (k : ℕ) :
    acc k = ∏ j ∈ Finset.range k, blk j := by
  induction k with
  | zero => rw [h0, Finset.range_zero, Finset.prod_empty]
  | succ k ih => rw [hs, ih, Finset.prod_range_succ]

/-- The running value AFTER block `k`, which is block `0` at `k = 0` and then multiplied by each next block, is
    the product of the blocks up to `k`; the steps are needed only below a bound `K`. -/
theorem run_eq_prod_range (blk run : ℕ → M) (K : ℕ) (h0 : run 0 = blk 0)
    (hs : ∀ k, k < K → run (k + 1) = run k * blk (k + 1)) (k : ℕ) (hk : k ≤ K) :
    run k = ∏ j ∈ Finset.range (k + 1), blk j := by
  induction k with
  | zero => rw [h0, Finset.prod_range_one]
  | succ k ih => rw [hs k (by omega), ih (by omega), Finset.prod_range_succ _ (k + 1)]

/-- Blocks to whole: if block `j` of the running product is the product of the whole's block `j`, then after the
    last of the `a = k + 1` blocks the running product is the product over the whole. -/
theorem run_eq_prod_whole {a b N : ℕ} (h : a * b = N) (g : Fin N → M) (blk run : ℕ → M)
    (hblk : ∀ j : Fin a, blk j.val = ∏ r : Fin b, g (blockIdx h j r)) (k : ℕ) (hk : k + 1 = a)
    (h0 : run 0 = blk 0) (hs : ∀ i, i < k → run (i + 1) = run i * blk (i + 1)) :
    run k = ∏ n : Fin N, g n := by
  rw [run_eq_prod_range blk run k h0 hs k le_rfl, prod_blocks h g, hk, ← Fin.prod_univ_eq_prod_range blk a]
  exact Finset.prod_congr rfl fun j _ => hblk j

end Monoid

section AddMonoid
variable {M : Type*} [AddCommMonoid M]

/-- A sum over `Fin N`, `N = a * b`, is the sum over the `a` blocks of each block's sum. -/
theorem sum_blocks {a b N : ℕ} (h : a * b = N) (g : Fin N → M) :
    ∑ n : Fin N, g n = ∑ j : Fin a, ∑ r : Fin b, g (blockIdx h j r) :=
  prod_blocks (M := Multiplicative M) h g

/-- The accumulator BEFORE block `k`, started at `0` and increased by each block in turn, is the sum of the
    blocks before `k`. -/
theorem acc_eq_sum_range (blk acc : ℕ → M) (h0 : acc 0 = 0) (hs : ∀ k, acc (k + 1) = acc k + blk k) (k : ℕ) :
    acc k = ∑ j ∈ Finset.range k, blk j :=
  acc_eq_prod_range (M := Multiplicative M) blk acc h0 hs k

/-- The running value AFTER block `k` (block `0` at `k = 0`, then increased by each next block) is the sum of
    the blocks up to `k`. -/
theorem run_eq_sum_range (blk run : ℕ → M) (K : ℕ) (h0 : run 0 = blk 0)
    (hs : ∀ k, k < K → run (k + 1) = run k + blk (k + 1)) (k : ℕ) (hk : k ≤ K) :
    run k = ∑ j ∈ Finset.range (k + 1), blk j :=
  run_eq_prod_range (M := Multiplicative M) blk run K h0 hs k hk

/-- Blocks to whole, for sums: if block `j` of the running sum is the sum of the whole's block `j`, then after the
    last of the `a = k + 1` blocks the running sum is the sum over the whole. -/
theorem run_eq_sum_whole {a b N : ℕ} (h : a * b = N) (g : Fin N → M) (blk run : ℕ → M)
    (hblk : ∀ j : Fin a, blk j.val = ∑ r : Fin b, g (blockIdx h j r)) (k : ℕ) (hk : k + 1 = a)
    (h0 : run 0 = blk 0) (hs : ∀ i, i < k → run (i + 1) = run i + blk (i + 1)) :
    run k = ∑ n : Fin N, g n :=
  run_eq_prod_whole (M := Multiplicative M) h g blk run hblk k hk h0 hs

end AddMonoid

/-! ## Folds of a commutative, associative operation with a neutral element -/

section Fold
variable {α : Type*} (op : α → α → α) [hc : Std.Commutative op] [ha : Std.Associative op]

/-- The commutative monoid of `op` with the neutral element `init`. -/
@[reducible] def foldMonoid (init : α) (hn : ∀ v, op init v = v) : CommMonoid α where
  mul := op
  one := init
  mul_assoc := ha.assoc
  one_mul := hn
  mul_one := fun v => by show op v init = v; rw [hc.comm]; exact hn v
  mul_comm := hc.comm

/-- A fold of `op` from its neutral element is the finite product in `foldMonoid`. -/
theorem fold_eq_prod {ι : Type*} (init : α) (hn : ∀ v, op init v = v) (s : Finset ι) (g : ι → α) :
    s.fold op init g = @Finset.prod ι α (foldMonoid op init hn) s g := rfl

/-- (a) The fold over `Fin N`, `N = a * b`, is the fold over the `a` blocks of each block's fold. -/
theorem fold_blocks (init : α) (hn : ∀ v, op init v = v) {a b N : ℕ} (h : a * b = N) (g : Fin N → α) :
    (Finset.univ : Finset (Fin N)).fold op init g
      = (Finset.univ : Finset (Fin a)).fold op init
          (fun j => (Finset.univ : Finset (Fin b)).fold op init (fun r => g (blockIdx h j r))) :=
  @prod_blocks α (foldMonoid op init hn) a b N h g

/-- (b) The running value AFTER block `k` (block `0` at `k = 0`, then combined with each next block) is the
    fold of the blocks up to `k`. -/
theorem run_eq_fold_range (init : α) (hn : ∀ v, op init v = v) (blk run : ℕ → α) (K : ℕ) (h0 : run 0 = blk 0)
    (hs : ∀ k, k < K → run (k + 1) = op (run k) (blk (k + 1))) (k : ℕ) (hk : k ≤ K) :
    run k = (Finset.range (k + 1)).fold op init blk :=
  @run_eq_prod_range α (foldMonoid op init hn) blk run K h0 hs k hk

/-- The same over `Fin (k + 1)`. -/
theorem run_eq_fold_fin (init : α) (hn : ∀ v, op init v = v) (blk run : ℕ → α) (K : ℕ) (h0 : run 0 = blk 0)
    (hs : ∀ k, k < K → run (k + 1) = op (run k) (blk (k + 1))) (k : ℕ) (hk : k ≤ K) :
    run k = (Finset.univ : Finset (Fin (k + 1))).fold op init (fun j => blk j.val) := by
  rw [run_eq_fold_range op init hn blk run K h0 hs k hk]
  exact (@prod_fin_eq_range α (foldMonoid op init hn) (k + 1) blk).symm

/-- The accumulator BEFORE block `k`, started at the neutral element and combined with each block in turn, is
    the fold of the blocks before `k`. -/
theorem acc_eq_fold_range (init : α) (hn : ∀ v, op init v = v) (blk acc : ℕ → α) (h0 : acc 0 = init)
    (hs : ∀ k, acc (k + 1) = op (acc k) (blk k)) (k : ℕ) :
    acc k = (Finset.range k).fold op init blk :=
  @acc_eq_prod_range α (foldMonoid op init hn) blk acc h0 hs k

/-- (a) and (b) joined: if block `j` of the running fold is the fold of the whole's block `j`, then after the last
    of the `a = k + 1` blocks the running value is the fold over the whole. -/
theorem run_eq_fold_whole (init : α) (hn : ∀ v, op init v = v) {a b N : ℕ} (h : a * b = N) (g : Fin N → α)
    (blk run : ℕ → α)
    (hblk : ∀ j : Fin a, blk j.val = (Finset.univ : Finset (Fin b)).fold op init (fun r => g (blockIdx h j r)))
    (k : ℕ) (hk : k + 1 = a) (h0 : run 0 = blk 0) (hs : ∀ i, i < k → run (i + 1) = op (run i) (blk (i + 1))) :
    run k = (Finset.univ : Finset (Fin N)).fold op init g :=
  @run_eq_prod_whole α (foldMonoid op init hn) a b N h g blk run hblk k hk h0 hs

end Fold

/-! ## The instances used: `min` from `⊤` and `max` from `⊥` on the extended reals -/

section EReal

/-- `⊤` is neutral for `min`. -/
theorem top_min (v : EReal) : min ⊤ v = v := top_inf_eq v
/-- `⊥` is neutral for `max`. -/
theorem bot_max (v : EReal) : max ⊥ v = v := bot_sup_eq v

/-- The least of `N = a * b` extended reals is the least of the blocks' least values. -/
theorem fold_min_blocks {a b N : ℕ} (h : a * b = N) (g : Fin N → EReal) :
    (Finset.univ : Finset (Fin N)).fold min ⊤ g
      = (Finset.univ : Finset (Fin a)).fold min ⊤
          (fun j => (Finset.univ : Finset (Fin b)).fold min ⊤ (fun r => g (blockIdx h j r))) :=
  fold_blocks min ⊤ top_min h g

/-- The greatest of `N = a * b` extended reals is the greatest of the blocks' greatest values. -/
theorem fold_max_blocks {a b N : ℕ} (h : a * b = N) (g : Fin N → EReal) :
    (Finset.univ : Finset (Fin N)).fold max ⊥ g
      = (Finset.univ : Finset (Fin a)).fold max ⊥
          (fun j => (Finset.univ : Finset (Fin b)).fold max ⊥ (fun r => g (blockIdx h j r))) :=
  fold_blocks max ⊥ bot_max h g

/-- A running minimum over the blocks, after the last of the `a = k + 1` blocks, is the least of the whole. -/
theorem run_min_whole {a b N : ℕ} (h : a * b = N) (g : Fin N → EReal) (blk run : ℕ → EReal)
    (hblk : ∀ j : Fin a, blk j.val = (Finset.univ : Finset (Fin b)).fold min ⊤ (fun r => g (blockIdx h j r)))
    (k : ℕ) (hk : k + 1 = a) (h0 : run 0 = blk 0) (hs : ∀ i, i < k → run (i + 1) = min (run i) (blk (i + 1))) :
    run k = (Finset.univ : Finset (Fin N)).fold min ⊤ g :=
  run_eq_fold_whole min ⊤ top_min h g blk run hblk k hk h0 hs

/-- A running maximum over the blocks, after the last of the `a = k + 1` blocks, is the greatest of the whole. -/
theorem run_max_whole {a b N : ℕ} (h : a * b = N) (g : Fin N → EReal) (blk run : ℕ → EReal)
    (hblk : ∀ j : Fin a, blk j.val = (Finset.univ : Finset (Fin b)).fold max ⊥ (fun r => g (blockIdx h j r)))
    (k : ℕ) (hk : k + 1 = a) (h0 : run 0 = blk 0) (hs : ∀ i, i < k → run (i + 1) = max (run i) (blk (i + 1))) :
    run k = (Finset.univ : Finset (Fin N)).fold max ⊥ g :=
  run_eq_fold_whole max ⊥ bot_max h g blk run hblk k hk h0 hs

/-- 100000 entries are 10 blocks of 10000 … -/
theorem blocks_10_10000 : 10 * 10000 = 100000 := by norm_num
/-- … and 20 blocks of 5000. -/
theorem blocks_20_5000 : 20 * 5000 = 100000 := by norm_num

/-- At those extents: the least of 100000 values is the least of the ten blocks' least values. -/
example (g : Fin 100000 → EReal) :
    (Finset.univ : Finset (Fin 100000)).fold min ⊤ g
      = (Finset.univ : Finset (Fin 10)).fold min ⊤
          (fun j => (Finset.univ : Finset (Fin 10000)).fold min ⊤ (fun r => g (blockIdx blocks_10_10000 j r))) :=
  fold_min_blocks blocks_10_10000 g

/-- At those extents: the sum of 100000 values is the sum of the twenty blocks' sums. -/
example (g : Fin 100000 → EReal) :
    ∑ n, g n = ∑ j : Fin 20, ∑ r : Fin 5000, g (blockIdx blocks_20_5000 j r) :=
  sum_blocks blocks_20_5000 g

end EReal

end Cert.FoldBlocks
-- ==== Proof.Bridge.lean ====
/-
  The two arrangements of one output entry meet.

  Entry (t, o) of the reference's result is ∑ c, x(t, c) · w(o, c) + bias(o) with the weight row
  w(o, c) = (W(o, p c) · s(o) + b(o)) + ∑ r, (U(o, r) · S(r)) · Vt(r, c). Entry (t, o) of the kernel's result is
  (s(o) · (0 + ∑ c, x(t, c) · W(o, p c)) + bias(o)) + (∑ r, ((∑ c, x(t, c) · Vt(r, c)) · S(r)) · U(o, r)
  + (0 + ∑ c, x(t, c)) · b(o)): the four column blocks of the accumulator laid end to end are the one sum over c, and the
  small product's 65 columns are the 64 of the rank and the one of the offsets. Both sides read the same dequantized
  codebook W through the same looked-up column p c. The precondition makes every entry of x, the centroids (so of W), s,
  b, U, S, Vt and the bias a real number, and on real numbers the two arrangements are one (the law over ℝ).
-/
import proofs.«154536_j11123965297141_2_alg».proof.Defs
import proofs.«154536_j11123965297141_2_alg».proof.Proof.KernelValue
import proofs.«154536_j11123965297141_2_alg».proof.Proof.Preamble
import proofs.«154536_j11123965297141_2_alg».proof.Proof.RefValue
import proofs.«154536_j11123965297141_2_alg».proof.Proof.RealLaw
import proofs.«154536_j11123965297141_2_alg».proof.Proof.Finite
import proofs.«154536_j11123965297141_2_alg».proof.Proof.LibFoldBlocks
import proofs.«154536_j11123965297141_2_alg».proof.Proof.Gen.Pre_finite_inputs
import Idealize.ShloMosaic.PureOps.Ideal.Laws

set_option maxRecDepth 16384

noncomputable section

namespace Cert.Bridge

open Cert.KernelIdeal Cert.KernelIdeal.Gen Cert.KernelPreamble Cert.KernelValue
open Idealize.ShloMosaic Idealize.ShloMosaic.TcCoe Idealize.ShloMosaic.ValueIdx Idealize.SL.Sem
open scoped BigOperators

/-- The kernel's arrangement of entry (t, o), over the launch arrays, the codebook Q and the column lookup pc. -/
def kform (a0 : S4096x4096.Idx → EReal) (a4 a5 : S4096x1.Idx → EReal) (a6 : S4096x64.Idx → EReal) (a7 : S64.Idx → EReal)
    (a8 : S64x4096.Idx → EReal) (a9 : S4096.Idx → EReal) (Q : S4096x4096.Idx → EReal) (pc : Fin 4096 → Fin 4096)
    (t o : Fin 4096) : EReal :=
  ((a4 (ix2 o (0 : Fin 1)) * (Ideal.ofBits .f32 0x00000000#32 + ∑ c : Fin 4096, a0 (ix2 t c) * Q (ix2 o (pc c))))
      + a9 (ix1 o))
    + (∑ r : Fin 64, ((∑ k : Fin 4096, a0 (ix2 t k) * a8 (ix2 r k)) * a7 (ix1 r)) * a6 (ix2 o r)
        + (Ideal.ofBits .f32 0x00000000#32 + ∑ k : Fin 4096, a0 (ix2 t k)) * a5 (ix2 o (0 : Fin 1)))

/-- The reference's arrangement of the same entry. -/
def rform (a0 : S4096x4096.Idx → EReal) (a4 a5 : S4096x1.Idx → EReal) (a6 : S4096x64.Idx → EReal) (a7 : S64.Idx → EReal)
    (a8 : S64x4096.Idx → EReal) (a9 : S4096.Idx → EReal) (Q : S4096x4096.Idx → EReal) (pc : Fin 4096 → Fin 4096)
    (t o : Fin 4096) : EReal :=
  (∑ c : Fin 4096, a0 (ix2 t c) *
      ((Q (ix2 o (pc c)) * a4 (ix2 o (0 : Fin 1)) + a5 (ix2 o (0 : Fin 1)))
        + ∑ r : Fin 64, (a6 (ix2 o r) * a7 (ix1 r)) * a8 (ix2 r c)))
    + a9 (ix1 o)

/-- On arrays of real numbers the two arrangements are equal. -/
theorem forms_eq (a0 : S4096x4096.Idx → EReal) (a4 a5 : S4096x1.Idx → EReal) (a6 : S4096x64.Idx → EReal)
    (a7 : S64.Idx → EReal) (a8 : S64x4096.Idx → EReal) (a9 : S4096.Idx → EReal) (Q : S4096x4096.Idx → EReal)
    (h0 : ∀ i, ∃ a : ℝ, a0 i = (a : EReal)) (h4 : ∀ i, ∃ a : ℝ, a4 i = (a : EReal)) (h5 : ∀ i, ∃ a : ℝ, a5 i = (a : EReal))
    (h6 : ∀ i, ∃ a : ℝ, a6 i = (a : EReal)) (h7 : ∀ i, ∃ a : ℝ, a7 i = (a : EReal)) (h8 : ∀ i, ∃ a : ℝ, a8 i = (a : EReal))
    (h9 : ∀ i, ∃ a : ℝ, a9 i = (a : EReal)) (hQ : ∀ i, ∃ a : ℝ, Q i = (a : EReal))
    (pc : Fin 4096 → Fin 4096) (t o : Fin 4096) :
    rform a0 a4 a5 a6 a7 a8 a9 Q pc t o = kform a0 a4 a5 a6 a7 a8 a9 Q pc t o := by
  obtain ⟨x0, rfl⟩ : ∃ x : S4096x4096.Idx → ℝ, a0 = fun i => (x i : EReal) :=
    ⟨fun i => (h0 i).choose, funext fun i => (h0 i).choose_spec⟩
  obtain ⟨x4, rfl⟩ : ∃ x : S4096x1.Idx → ℝ, a4 = fun i => (x i : EReal) :=
    ⟨fun i => (h4 i).choose, funext fun i => (h4 i).choose_spec⟩
  obtain ⟨x5, rfl⟩ : ∃ x : S4096x1.Idx → ℝ, a5 = fun i => (x i : EReal) :=
    ⟨fun i => (h5 i).choose, funext fun i => (h5 i).choose_spec⟩
  obtain ⟨x6, rfl⟩ : ∃ x : S4096x64.Idx → ℝ, a6 = fun i => (x i : EReal) :=
    ⟨fun i => (h6 i).choose, funext fun i => (h6 i).choose_spec⟩
  obtain ⟨x7, rfl⟩ : ∃ x : S64.Idx → ℝ, a7 = fun i => (x i : EReal) :=
    ⟨fun i => (h7 i).choose, funext fun i => (h7 i).choose_spec⟩
  obtain ⟨x8, rfl⟩ : ∃ x : S64x4096.Idx → ℝ, a8 = fun i => (x i : EReal) :=
    ⟨fun i => (h8 i).choose, funext fun i => (h8 i).choose_spec⟩
  obtain ⟨x9, rfl⟩ : ∃ x : S4096.Idx → ℝ, a9 = fun i => (x i : EReal) :=
    ⟨fun i => (h9 i).choose, funext fun i => (h9 i).choose_spec⟩
  obtain ⟨xq, rfl⟩ : ∃ x : S4096x4096.Idx → ℝ, Q = fun i => (x i : EReal) :=
    ⟨fun i => (hQ i).choose, funext fun i => (hQ i).choose_spec⟩
  unfold rform kform
  rw [Ideal.ofBits_zero_f32]
  exact (QLinear.law_ereal (fun c => x0 (ix2 t c)) (fun c => xq (ix2 o (pc c))) (fun r c => x8 (ix2 r c))
    (fun r => x6 (ix2 o r)) (fun r => x7 (ix1 r)) (x4 (ix2 o (0 : Fin 1))) (x5 (ix2 o (0 : Fin 1))) (x9 (ix1 o))).symm

/-- The four column blocks laid end to end are the whole row. -/
theorem sum_at4 (g : Fin 4096 → EReal) :
    (∑ s ∈ Finset.range 4, ∑ k : Fin 1024, g (at4 s k)) = ∑ c : Fin 4096, g c := by
  rw [Finset.sum_range, Cert.FoldBlocks.sum_blocks (show 4 * 1024 = 4096 by norm_num) g]
  refine Finset.sum_congr rfl fun j _ => Finset.sum_congr rfl fun k _ => congrArg g (Fin.ext ?_)
  show j.val % 4 * 1024 + k.val = j.val * 1024 + k.val
  have := j.isLt
  omega

variable (m : (ℓ : Loc nD τ sig) → Buf (Elt Ideal) ℓ) (c : Dev nD)

/-- The kernel's result entry is its arrangement over the launch arrays. -/
theorem kernel_form (t o : Fin 4096) :
    G m c (ix2 t o)
      = kform (arg0 m c) (arg4 m c) (arg5 m c) (arg6 m c) (arg7 m c) (arg8 m c) (arg9 m c)
          (codebook (arg1 m c) (arg2 m c)) (pcol (arg3 m c)) t o := by
  show entry (W16 m c) (W15 m c) (W26 m c) (W27 m c) (W24 m c) (W25 m c) t o = _
  unfold entry kform
  rw [sum_at4 (fun c' => W16 m c (ix2 t c') * W15 m c (ix2 o c')),
    Fin.sum_univ_castSucc (fun r : Fin 65 => W24 m c (ix2 t r) * W25 m c (ix2 o r))]
  refine congrArg₂ (fun a b : EReal => a + b)
    (congrArg₂ (fun a b : EReal => a + b)
      (congrArg₂ (fun a b : EReal => a * b) (scale_apply m c o)
        (congrArg (fun a : EReal => Ideal.ofBits .f32 0x00000000#32 + a) (Finset.sum_congr rfl fun k _ => ?_)))
      (bias_apply m c o))
    (congrArg₂ (fun a b : EReal => a + b) (Finset.sum_congr rfl fun r _ => ?_) ?_)
  · exact congrArg₂ (fun a b : EReal => a * b) (x_apply m c t k) (q_apply m c o k)
  · exact congrArg₂ (fun a b : EReal => a * b) (taug_left m c t r r.castSucc rfl) (uaug_left m c o r r.castSucc rfl)
  · exact congrArg₂ (fun a b : EReal => a * b) (taug_last m c t (Fin.last 64) rfl) (uaug_last m c o (Fin.last 64) rfl)

/-- The reference's result entry is its arrangement, over the same codebook and the same column lookup. -/
theorem ref_form (t o : Fin 4096) :
    Cert.ReferenceIdeal.Read.val_main_v28 (F := Ideal) (arg0 m c) (arg1 m c) (arg2 m c) (arg3 m c) (arg4 m c) (arg5 m c)
        (arg6 m c) (arg7 m c) (arg8 m c) (arg9 m c) (ix2 t o)
      = rform (arg0 m c) (arg4 m c) (arg5 m c) (arg6 m c) (arg7 m c) (arg8 m c) (arg9 m c)
          (codebook (arg1 m c) (arg2 m c)) (pcol (arg3 m c)) t o :=
  Cert.RefValue.ref_apply (arg0 m c) (arg1 m c) (arg2 m c) (arg3 m c) (arg4 m c) (arg5 m c) (arg6 m c) (arg7 m c)
    (arg8 m c) (arg9 m c) t o

/-- Under the precondition the reference's result is the kernel's, as whole arrays. -/
theorem bridge (hpre : Cert.Pre_KernelIdeal m) :
    Cert.ReferenceIdeal.Read.val_main_v28 (F := Ideal) (arg0 m c) (arg1 m c) (arg2 m c) (arg3 m c) (arg4 m c) (arg5 m c)
        (arg6 m c) (arg7 m c) (arg8 m c) (arg9 m c)
      = G m c := by
  funext i
  obtain ⟨t, o, rfl⟩ : ∃ (t o : Fin 4096), i = ix2 t o := ⟨i 0, i 1, eq_ix2 i⟩
  obtain ⟨h0, h1, h4, h5, h6, h7, h8, h9⟩ :=
    Cert.Finite.reals_of_pre (arg0 m c) (arg1 m c) (arg2 m c) (arg3 m c) (arg4 m c) (arg5 m c) (arg6 m c) (arg7 m c)
      (arg8 m c) (arg9 m c) (hpre c)
  rw [ref_form, kernel_form]
  exact forms_eq _ _ _ _ _ _ _ _ h0 h4 h5 h6 h7 h8 h9 (fun i => h1 _) _ t o

end Cert.Bridge

end
-- ==== Proof.lean ====
/-
  The certificate's five claims for the quantized linear layer (codebook dequantization, a column permutation, a
  rank-64 correction and a bias against a 4096 × 4096 × 4096 product).

  The three frames are the generated frame runs (the reference's is its generated run with the result dropped). The
  idealization rewrote nothing, so that claim is trivial. The algebraic claim sets the kernel's run — its result array
  read block by block into one array G (KernelValue), over the arrays the host lines before the launch leave (Preamble) —
  beside the reference's generated run read at an entry (RefValue); the two are equal entry by entry (Bridge) by the law
  over the real numbers (RealLaw), which the precondition licenses (Finite).
-/
import proofs.«154536_j11123965297141_2_alg».proof.Defs
import proofs.«154536_j11123965297141_2_alg».proof.Proof.Gen.Kernel
import proofs.«154536_j11123965297141_2_alg».proof.Proof.Gen.Kernel.Skeleton
import proofs.«154536_j11123965297141_2_alg».proof.Proof.Gen.Kernel.Launch
import proofs.«154536_j11123965297141_2_alg».proof.Proof.Gen.Kernel.Points
import proofs.«154536_j11123965297141_2_alg».proof.Proof.Gen.Kernel.Frame
import proofs.«154536_j11123965297141_2_alg».proof.Proof.Gen.KernelIdeal
import proofs.«154536_j11123965297141_2_alg».proof.Proof.Gen.KernelIdeal.Skeleton
import proofs.«154536_j11123965297141_2_alg».proof.Proof.Gen.KernelIdeal.Launch
import proofs.«154536_j11123965297141_2_alg».proof.Proof.Gen.KernelIdeal.Points
import proofs.«154536_j11123965297141_2_alg».proof.Proof.Gen.KernelIdeal.Frame
import proofs.«154536_j11123965297141_2_alg».proof.Proof.Gen.ReferenceIdeal
import proofs.«154536_j11123965297141_2_alg».proof.Proof.Gen.Pre_finite_inputs
import proofs.«154536_j11123965297141_2_alg».proof.Proof.Gen.KernelIdeal.Value
import proofs.«154536_j11123965297141_2_alg».proof.Proof.Gen.ReferenceIdeal.Run
import proofs.«154536_j11123965297141_2_alg».proof.Proof.Gen.ReferenceIdeal.Read
import proofs.«154536_j11123965297141_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at G of its launch arrays, the reference's at its composed term of arrays that agree
    with them; that term is the reference's last stage, and the stage is G. -/
theorem algebraic : Cert.algebraic_KernelIdeal_ReferenceIdeal := by
  intro m ρ m' ρ' hpre hagree
  refine ⟨fun c => Cert.KernelValue.G m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [g0, g1, g2, g3, g4, g5, g6, g7, g8, g9]
  exact (Cert.ReferenceIdeal.Read.val_main_v28_eq _ _ _ _ _ _ _ _ _ _).trans (Cert.Bridge.bridge m c hpre)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
